-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x37x37 : Shape := ⟨4, ![128, 512, 37, 37]⟩
abbrev S128x14x14x2 : Shape := ⟨4, ![128, 14, 14, 2]⟩
abbrev S_ : Shape := ⟨0, ![]⟩

class Facts : Prop where
  bcast_S_S128x512x37x37 : S_.BroadcastsInDim S128x512x37x37 (![] : Fin 0 → Fin S128x512x37x37.rank)
  reducesTo_S128x512x37x37_S_d0_1_2_3 : S128x512x37x37.ReducesTo [0, 1, 2, 3] S_
  h_S_ : 0 < S_.numel
  bcast_S_S128x14x14x2 : S_.BroadcastsInDim S128x14x14x2 (![] : Fin 0 → Fin S128x14x14x2.rank)
  reducesTo_S128x14x14x2_S_d0_1_2_3 : S128x14x14x2.ReducesTo [0, 1, 2, 3] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S128x512x37x37 .f32) (main_arg1 : FVec F S128x14x14x2 .f32) : IVec S_ 1 :=
  let main_v0 : FVec F S128x512x37x37 .f32 := Host.absf main_arg0
  let main_cst : FVec F S_ .f32 := constant S_ .f32 0x7F800000#32
  let main_v1 : FVec F S128x512x37x37 .f32 := broadcastInDim S128x512x37x37 ![] bcast_S_S128x512x37x37 main_cst
  let main_v2 : IVec S128x512x37x37 1 := cmpf .olt main_v0 main_v1
  let main_c : IVec S_ 1 := constantI S_ 1 1#1
  let main_v3 : IVec S_ 1 := (fun x v => Host.reduce IntOp.andi x v reducesTo_S128x512x37x37_S_d0_1_2_3 h_S_) main_v2 main_c
  let main_v4 : FVec F S128x14x14x2 .f32 := Host.absf main_arg1
  let main_cst_0 : FVec F S_ .f32 := constant S_ .f32 0x7F800000#32
  let main_v5 : FVec F S128x14x14x2 .f32 := broadcastInDim S128x14x14x2 ![] bcast_S_S128x14x14x2 main_cst_0
  let main_v6 : IVec S128x14x14x2 1 := cmpf .olt main_v4 main_v5
  let main_c_1 : IVec S_ 1 := constantI S_ 1 1#1
  let main_v7 : IVec S_ 1 := (fun x v => Host.reduce IntOp.andi x v reducesTo_S128x14x14x2_S_d0_1_2_3 h_S_) main_v6 main_c_1
  let main_v8 : IVec S_ 1 := andi main_v3 main_v7
  let main_cst_2 : FVec F S_ .f32 := constant S_ .f32 0xBF800000#32
  let main_v9 : FVec F S128x14x14x2 .f32 := broadcastInDim S128x14x14x2 ![] bcast_S_S128x14x14x2 main_cst_2
  let main_v10 : IVec S128x14x14x2 1 := cmpf .oge main_arg1 main_v9
  let main_c_3 : IVec S_ 1 := constantI S_ 1 1#1
  let main_v11 : IVec S_ 1 := (fun x v => Host.reduce IntOp.andi x v reducesTo_S128x14x14x2_S_d0_1_2_3 h_S_) main_v10 main_c_3
  let main_v12 : IVec S_ 1 := andi main_v8 main_v11
  let main_cst_4 : FVec F S_ .f32 := constant S_ .f32 0x3F800000#32
  let main_v13 : FVec F S128x14x14x2 .f32 := broadcastInDim S128x14x14x2 ![] bcast_S_S128x14x14x2 main_cst_4
  let main_v14 : IVec S128x14x14x2 1 := cmpf .ole main_arg1 main_v13
  let main_c_5 : IVec S_ 1 := constantI S_ 1 1#1
  let main_v15 : IVec S_ 1 := (fun x v => Host.reduce IntOp.andi x v reducesTo_S128x14x14x2_S_d0_1_2_3 h_S_) main_v14 main_c_5
  fn_part1 (F := F) main_v12 main_v15
-- ==== Kernel.lean ====
abbrev S128x512x37x37 : Shape := ⟨4, ![128, 512, 37, 37]⟩
abbrev S128x14x14x2 : Shape := ⟨4, ![128, 14, 14, 2]⟩
abbrev S128x512x1369 : Shape := ⟨3, ![128, 512, 1369]⟩
abbrev S128x196x2 : Shape := ⟨3, ![128, 196, 2]⟩
abbrev S1369 : Shape := ⟨1, ![1369]⟩
abbrev S_ : Shape := ⟨0, ![]⟩
abbrev S1x1369 : Shape := ⟨2, ![1, 1369]⟩
abbrev S128x512x196 : Shape := ⟨3, ![128, 512, 196]⟩
abbrev S2x512x1369 : Shape := ⟨3, ![2, 512, 1369]⟩
abbrev S2x196x2 : Shape := ⟨3, ![2, 196, 2]⟩
abbrev S2x512x196 : Shape := ⟨3, ![2, 512, 196]⟩
abbrev S2x196x1 : Shape := ⟨3, ![2, 196, 1]⟩
abbrev S2x196 : Shape := ⟨2, ![2, 196]⟩
abbrev S1x1x1369 : Shape := ⟨3, ![1, 1, 1369]⟩
abbrev S2x196x1369 : Shape := ⟨3, ![2, 196, 1369]⟩
abbrev S128x512x14x14 : Shape := ⟨4, ![128, 512, 14, 14]⟩

abbrev nBuf : Space → Nat
  | .hbm => 52
  | .vmem => 8
  | .smem => 0
  | _ => 0

abbrev bufTy : (tb : Table) → Fin (tcTables nBuf tb) → BufTy
  | .hbm, ⟨0, _⟩ => ⟨S128x512x37x37, .f32⟩
  | .hbm, ⟨1, _⟩ => ⟨S128x14x14x2, .f32⟩
  | .hbm, ⟨2, _⟩ => ⟨S128x512x1369, .f32⟩
  | .hbm, ⟨3, _⟩ => ⟨S128x196x2, .f32⟩
  | .hbm, ⟨4, _⟩ => ⟨S1369, .i32⟩
  | .hbm, ⟨5, _⟩ => ⟨S_, .i32⟩
  | .hbm, ⟨6, _⟩ => ⟨S_, .i32⟩
  | .hbm, ⟨7, _⟩ => ⟨S1369, .i32⟩
  | .hbm, ⟨8, _⟩ => ⟨S1369, .i32⟩
  | .hbm, ⟨9, _⟩ => ⟨S1369, .i32⟩
  | .hbm, ⟨10, _⟩ => ⟨S_, .i32⟩
  | .hbm, ⟨11, _⟩ => ⟨S1369, .i32⟩
  | .hbm, ⟨12, _⟩ => ⟨S1369, .i1⟩
  | .hbm, ⟨13, _⟩ => ⟨S1369, .i32⟩
  | .hbm, ⟨14, _⟩ => ⟨S1369, .i32⟩
  | .hbm, ⟨15, _⟩ => ⟨S_, .i32⟩
  | .hbm, ⟨16, _⟩ => ⟨S1369, .i32⟩
  | .hbm, ⟨17, _⟩ => ⟨S1369, .i1⟩
  | .hbm, ⟨18, _⟩ => ⟨S1369, .i1⟩
  | .hbm, ⟨19, _⟩ => ⟨S_, .i32⟩
  | .hbm, ⟨20, _⟩ => ⟨S1369, .i32⟩
  | .hbm, ⟨21, _⟩ => ⟨S1369, .i32⟩
  | .hbm, ⟨22, _⟩ => ⟨S1369, .i32⟩
  | .hbm, ⟨23, _⟩ => ⟨S1369, .f32⟩
  | .hbm, ⟨24, _⟩ => ⟨S1x1369, .f32⟩
  | .hbm, ⟨25, _⟩ => ⟨S1369, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S1369, .i32⟩
  | .hbm, ⟨33, _⟩ => ⟨S1369, .i32⟩
  | .hbm, ⟨34, _⟩ => ⟨S_, .i32⟩
  | .hbm, ⟨35, _⟩ => ⟨S1369, .i32⟩
  | .hbm, ⟨36, _⟩ => ⟨S1369, .i1⟩
  | .hbm, ⟨37, _⟩ => ⟨S_, .i32⟩
  | .hbm, ⟨38, _⟩ => ⟨S1369, .i32⟩
  | .hbm, ⟨39, _⟩ => ⟨S1369, .i1⟩
  | .hbm, ⟨40, _⟩ => ⟨S_, .i32⟩
  | .hbm, ⟨41, _⟩ => ⟨S_, .i1⟩
  | .hbm, ⟨42, _⟩ => ⟨S1369, .i1⟩
  | .hbm, ⟨43, _⟩ => ⟨S1369, .i1⟩
  | .hbm, ⟨44, _⟩ => ⟨S1369, .i1⟩
  | .hbm, ⟨45, _⟩ => ⟨S1369, .i32⟩
  | .hbm, ⟨46, _⟩ => ⟨S1369, .i32⟩
  | .hbm, ⟨47, _⟩ => ⟨S1369, .i32⟩
  | .hbm, ⟨48, _⟩ => ⟨S1369, .f32⟩
  | .hbm, ⟨49, _⟩ => ⟨S1x1369, .f32⟩
  | .hbm, ⟨50, _⟩ => ⟨S128x512x196, .f32⟩
  | .hbm, ⟨51, _⟩ => ⟨S128x512x14x14, .f32⟩
  | .local _ .vmem, ⟨0, _⟩ => ⟨S2x512x1369, .f32⟩
  | .local _ .vmem, ⟨1, _⟩ => ⟨S2x512x1369, .f32⟩
  | .local _ .vmem, ⟨2, _⟩ => ⟨S2x196x2, .f32⟩
  | .local _ .vmem, ⟨3, _⟩ => ⟨S2x196x2, .f32⟩
  | .local _ .vmem, ⟨4, _⟩ => ⟨S1x1369, .f32⟩
  | .local _ .vmem, ⟨5, _⟩ => ⟨S1x1369, .f32⟩
  | .local _ .vmem, ⟨6, _⟩ => ⟨S2x512x196, .f32⟩
  | .local _ .vmem, ⟨7, _⟩ => ⟨S2x512x196, .f32⟩
  | _, _ => ⟨S128x512x37x37, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x1369 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x196x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1369 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1369 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x512x196 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128x512x37x37_S128x512x1369 : S128x512x37x37.ShapeCasts S128x512x1369
  shapeCasts_S128x14x14x2_S128x196x2 : S128x14x14x2.ShapeCasts S128x196x2
  bcast_S_S1369 : S_.BroadcastsInDim S1369 (![] : Fin 0 → Fin S1369.rank)
  shapeCasts_S1369_S1x1369 : S1369.ShapeCasts S1x1369
  inb_S2x196x2_S2x196x2_0_0_0 : ∀ a, (![0, 0, 0] : Fin 3 → Nat) a + S2x196x2.size a ≤ S2x196x2.size a
  h_S2x196x2 : 0 < S2x196x2.numel
  shapeCasts_S2x196x2_S2x196x2 : S2x196x2.ShapeCasts S2x196x2
  slices_S2x196x2_o0_0_0_S2x196x1 : S2x196x2.Slices ![0, 0, 0] S2x196x1
  shapeCasts_S2x196x1_S2x196 : S2x196x1.ShapeCasts S2x196
  slices_S2x196x2_o0_0_1_S2x196x1 : S2x196x2.Slices ![0, 0, 1] S2x196x1
  inb_S1x1369_S1x1369_0_0 : ∀ a, (![0, 0] : Fin 2 → Nat) a + S1x1369.size a ≤ S1x1369.size a
  h_S1x1369 : 0 < S1x1369.numel
  shapeCasts_S1x1369_S1x1369 : S1x1369.ShapeCasts S1x1369
  shapeCasts_S1x1369_S1x1x1369 : S1x1369.ShapeCasts S1x1x1369
  shapeCasts_S2x196_S2x196x1 : S2x196.ShapeCasts S2x196x1
  broadcasts_S1x1x1369_S2x196x1369 : S1x1x1369.Broadcasts S2x196x1369
  broadcasts_S2x196x1_S2x196x1369 : S2x196x1.Broadcasts S2x196x1369
  bitsLt_bf16_f32 : FTy.bits .bf16 < FTy.bits .f32
  inb_S2x512x1369_S2x512x1369_0_0_0 : ∀ a, (![0, 0, 0] : Fin 3 → Nat) a + S2x512x1369.size a ≤ S2x512x1369.size a
  h_S2x512x1369 : 0 < S2x512x1369.numel
  shapeCasts_S2x512x1369_S2x512x1369 : S2x512x1369.ShapeCasts S2x512x1369
  inb_S2x512x196_S2x512x196_0_0_0 : ∀ a, (![0, 0, 0] : Fin 3 → Nat) a + S2x512x196.size a ≤ S2x512x196.size a
  h_S2x512x196 : 0 < S2x512x196.numel
  shapeCasts_S128x512x196_S128x512x14x14 : S128x512x196.ShapeCasts S128x512x14x14
  dot_S2x512x1369_S2x196x1369_S2x512x196_2_2_1_1_0_0_wf : DotDims.WF S2x512x1369 S2x196x1369 S2x512x196 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x1369.size a ≤ S128x512x1369.size a
  hwx0_0 : ∀ i : grid0.Coords, EltTy.bits .f32 = 32 ∨ (Rect.block (s := S128x512x1369) S2x512x1369.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x196x2.size a ≤ S128x196x2.size a
  hwx0_1 : ∀ i : grid0.Coords, EltTy.bits .f32 = 32 ∨ (Rect.block (s := S128x196x2) S2x196x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1369.size a ≤ S1x1369.size a
  hwx0_2 : ∀ i : grid0.Coords, EltTy.bits .f32 = 32 ∨ (Rect.block (s := S1x1369) S1x1369.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1369.size a ≤ S1x1369.size a
  hwx0_3 : ∀ i : grid0.Coords, EltTy.bits .f32 = 32 ∨ (Rect.block (s := S1x1369) S1x1369.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x512x196.size a ≤ S128x512x196.size a
  hwx0_4 : ∀ i : grid0.Coords, EltTy.bits .f32 = 32 ∨ (Rect.block (s := S128x512x196) S2x512x196.size (cc0_transform_4 i) (hinb0_4 i)).WholeWords (EltTy.packing .f32)

variable [Facts₀]

def dot_S2x512x1369_S2x196x1369_S2x512x196_2_2_1_1_0_0 : DotDims S2x512x1369 S2x196x1369 S2x512x196 where
  lhsContracting := [2]
  rhsContracting := [2]
  lhsNonContracting := [1]
  rhsNonContracting := [1]
  lhsBatch := [0]
  rhsBatch := [0]
  wf := dot_S2x512x1369_S2x196x1369_S2x512x196_2_2_1_1_0_0_wf

abbrev win0_0 : Pipeline.Window sig grid0 :=
  Pipeline.Window.ofSpec (Memref.whole main_v0) S2x512x1369.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x196x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1369.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1369.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2x512x196.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x512x37x37 : Shape := ⟨4, ![128, 512, 37, 37]⟩
abbrev S128x14x14x2 : Shape := ⟨4, ![128, 14, 14, 2]⟩
abbrev S128x14x14x1 : Shape := ⟨4, ![128, 14, 14, 1]⟩
abbrev S128x14x14 : Shape := ⟨3, ![128, 14, 14]⟩
abbrev S_ : Shape := ⟨0, ![]⟩
abbrev S128 : Shape := ⟨1, ![128]⟩
abbrev S128x1x1 : Shape := ⟨3, ![128, 1, 1]⟩
abbrev S128x14x14x3 : Shape := ⟨4, ![128, 14, 14, 3]⟩
abbrev S128x14x14x512 : Shape := ⟨4, ![128, 14, 14, 512]⟩
abbrev S128x512x14x14 : Shape := ⟨4, ![128, 512, 14, 14]⟩

abbrev nBuf : Space → Nat
  | .hbm => 214
  | .vmem => 0
  | .smem => 0
  | _ => 0

abbrev hbmTy0_0 (i : Nat) : BufTy := match i % 128 with
  | 0 => ⟨S128x512x37x37, .f32⟩
  | 1 => ⟨S128x14x14x2, .f32⟩
  | 2 => ⟨S128x14x14x1, .f32⟩
  | 3 => ⟨S128x14x14, .f32⟩
  | 4 => ⟨S_, .f32⟩
  | 5 => ⟨S128x14x14, .f32⟩
  | 6 => ⟨S128x14x14, .f32⟩
  | 7 => ⟨S_, .f32⟩
  | 8 => ⟨S128x14x14, .f32⟩
  | 9 => ⟨S128x14x14, .f32⟩
  | 10 => ⟨S_, .f32⟩
  | 11 => ⟨S128x14x14, .f32⟩
  | 12 => ⟨S128x14x14, .f32⟩
  | 13 => ⟨S128x14x14x1, .f32⟩
  | 14 => ⟨S128x14x14, .f32⟩
  | 15 => ⟨S_, .f32⟩
  | 16 => ⟨S128x14x14, .f32⟩
  | 17 => ⟨S128x14x14, .f32⟩
  | 18 => ⟨S_, .f32⟩
  | 19 => ⟨S128x14x14, .f32⟩
  | 20 => ⟨S128x14x14, .f32⟩
  | 21 => ⟨S_, .f32⟩
  | 22 => ⟨S128x14x14, .f32⟩
  | 23 => ⟨S128x14x14, .f32⟩
  | 24 => ⟨S128x14x14, .f32⟩
  | 25 => ⟨S128x14x14, .f32⟩
  | 26 => ⟨S128x14x14, .f32⟩
  | 27 => ⟨S128x14x14, .f32⟩
  | 28 => ⟨S128x14x14, .i32⟩
  | 29 => ⟨S_, .i32⟩
  | 30 => ⟨S_, .i32⟩
  | 31 => ⟨S_, .i32⟩
  | 32 => ⟨S128x14x14, .i32⟩
  | 33 => ⟨S128x14x14, .i32⟩
  | 34 => ⟨S_, .i32⟩
  | 35 => ⟨S128x14x14, .i32⟩
  | 36 => ⟨S128x14x14, .i32⟩
  | 37 => ⟨S128x14x14, .i32⟩
  | 38 => ⟨S_, .i32⟩
  | 39 => ⟨S128x14x14, .i32⟩
  | 40 => ⟨S128x14x14, .i32⟩
  | 41 => ⟨S_, .i32⟩
  | 42 => ⟨S_, .i32⟩
  | 43 => ⟨S_, .i32⟩
  | 44 => ⟨S128x14x14, .i32⟩
  | 45 => ⟨S128x14x14, .i32⟩
  | 46 => ⟨S_, .i32⟩
  | 47 => ⟨S128x14x14, .i32⟩
  | 48 => ⟨S128x14x14, .i32⟩
  | 49 => ⟨S128x14x14, .i32⟩
  | 50 => ⟨S_, .i32⟩
  | 51 => ⟨S_, .i32⟩
  | 52 => ⟨S_, .i32⟩
  | 53 => ⟨S128x14x14, .i32⟩
  | 54 => ⟨S128x14x14, .i32⟩
  | 55 => ⟨S_, .i32⟩
  | 56 => ⟨S128x14x14, .i32⟩
  | 57 => ⟨S128x14x14, .i32⟩
  | 58 => ⟨S128x14x14, .i32⟩
  | 59 => ⟨S_, .i32⟩
  | 60 => ⟨S128x14x14, .i32⟩
  | 61 => ⟨S128x14x14, .i32⟩
  | 62 => ⟨S_, .i32⟩
  | 63 => ⟨S_, .i32⟩
  | 64 => ⟨S_, .i32⟩
  | 65 => ⟨S128x14x14, .i32⟩
  | 66 => ⟨S128x14x14, .i32⟩
  | 67 => ⟨S_, .i32⟩
  | 68 => ⟨S128x14x14, .i32⟩
  | 69 => ⟨S128x14x14, .i32⟩
  | 70 => ⟨S128, .i32⟩
  | 71 => ⟨S128x1x1, .i32⟩
  | 72 => ⟨S_, .i32⟩
  | 73 => ⟨S128x1x1, .i32⟩
  | 74 => ⟨S128x1x1, .i1⟩
  | 75 => ⟨S_, .i32⟩
  | 76 => ⟨S128x1x1, .i32⟩
  | 77 => ⟨S128x1x1, .i32⟩
  | 78 => ⟨S128x1x1, .i32⟩
  | 79 => ⟨S_, .i32⟩
  | 80 => ⟨S128x14x14, .i32⟩
  | 81 => ⟨S128x14x14, .i1⟩
  | 82 => ⟨S_, .i32⟩
  | 83 => ⟨S128x14x14, .i32⟩
  | 84 => ⟨S128x14x14, .i32⟩
  | 85 => ⟨S128x14x14, .i32⟩
  | 86 => ⟨S_, .i32⟩
  | 87 => ⟨S128x14x14, .i32⟩
  | 88 => ⟨S128x14x14, .i1⟩
  | 89 => ⟨S_, .i32⟩
  | 90 => ⟨S128x14x14, .i32⟩
  | 91 => ⟨S128x14x14, .i32⟩
  | 92 => ⟨S128x14x14, .i32⟩
  | 93 => ⟨S128x14x14, .i32⟩
  | 94 => ⟨S128x14x14x1, .i32⟩
  | 95 => ⟨S128x14x14x1, .i32⟩
  | 96 => ⟨S128x14x14x1, .i32⟩
  | 97 => ⟨S128x14x14x3, .i32⟩
  | 98 => ⟨S128x14x14x512, .f32⟩
  | 99 => ⟨S_, .i32⟩
  | 100 => ⟨S128x1x1, .i32⟩
  | 101 => ⟨S128x1x1, .i1⟩
  | 102 => ⟨S_, .i32⟩
  | 103 => ⟨S128x1x1, .i32⟩
  | 104 => ⟨S128x1x1, .i32⟩
  | 105 => ⟨S128x1x1, .i32⟩
  | 106 => ⟨S_, .i32⟩
  | 107 => ⟨S128x14x14, .i32⟩
  | 108 => ⟨S128x14x14, .i1⟩
  | 109 => ⟨S_, .i32⟩
  | 110 => ⟨S128x14x14, .i32⟩
  | 111 => ⟨S128x14x14, .i32⟩
  | 112 => ⟨S128x14x14, .i32⟩
  | 113 => ⟨S_, .i32⟩
  | 114 => ⟨S128x14x14, .i32⟩
  | 115 => ⟨S128x14x14, .i1⟩
  | 116 => ⟨S_, .i32⟩
  | 117 => ⟨S128x14x14, .i32⟩
  | 118 => ⟨S128x14x14, .i32⟩
  | 119 => ⟨S128x14x14, .i32⟩
  | 120 => ⟨S128x14x14, .i32⟩
  | 121 => ⟨S128x14x14x1, .i32⟩
  | 122 => ⟨S128x14x14x1, .i32⟩
  | 123 => ⟨S128x14x14x1, .i32⟩
  | 124 => ⟨S128x14x14x3, .i32⟩
  | 125 => ⟨S128x14x14x512, .f32⟩
  | 126 => ⟨S_, .i32⟩
  | 127 => ⟨S128x1x1, .i32⟩
  | _ => ⟨S128x512x37x37, .f32⟩

abbrev hbmTy0_1 (i : Nat) : BufTy := match i % 128 with
  | 0 => ⟨S128x1x1, .i1⟩
  | 1 => ⟨S_, .i32⟩
  | 2 => ⟨S128x1x1, .i32⟩
  | 3 => ⟨S128x1x1, .i32⟩
  | 4 => ⟨S128x1x1, .i32⟩
  | 5 => ⟨S_, .i32⟩
  | 6 => ⟨S128x14x14, .i32⟩
  | 7 => ⟨S128x14x14, .i1⟩
  | 8 => ⟨S_, .i32⟩
  | 9 => ⟨S128x14x14, .i32⟩
  | 10 => ⟨S128x14x14, .i32⟩
  | 11 => ⟨S128x14x14, .i32⟩
  | 12 => ⟨S_, .i32⟩
  | 13 => ⟨S128x14x14, .i32⟩
  | 14 => ⟨S128x14x14, .i1⟩
  | 15 => ⟨S_, .i32⟩
  | 16 => ⟨S128x14x14, .i32⟩
  | 17 => ⟨S128x14x14, .i32⟩
  | 18 => ⟨S128x14x14, .i32⟩
  | 19 => ⟨S128x14x14, .i32⟩
  | 20 => ⟨S128x14x14x1, .i32⟩
  | 21 => ⟨S128x14x14x1, .i32⟩
  | 22 => ⟨S128x14x14x1, .i32⟩
  | 23 => ⟨S128x14x14x3, .i32⟩
  | 24 => ⟨S128x14x14x512, .f32⟩
  | 25 => ⟨S_, .i32⟩
  | 26 => ⟨S128x1x1, .i32⟩
  | 27 => ⟨S128x1x1, .i1⟩
  | 28 => ⟨S_, .i32⟩
  | 29 => ⟨S128x1x1, .i32⟩
  | 30 => ⟨S128x1x1, .i32⟩
  | 31 => ⟨S128x1x1, .i32⟩
  | 32 => ⟨S_, .i32⟩
  | 33 => ⟨S128x14x14, .i32⟩
  | 34 => ⟨S128x14x14, .i1⟩
  | 35 => ⟨S_, .i32⟩
  | 36 => ⟨S128x14x14, .i32⟩
  | 37 => ⟨S128x14x14, .i32⟩
  | 38 => ⟨S128x14x14, .i32⟩
  | 39 => ⟨S_, .i32⟩
  | 40 => ⟨S128x14x14, .i32⟩
  | 41 => ⟨S128x14x14, .i1⟩
  | 42 => ⟨S_, .i32⟩
  | 43 => ⟨S128x14x14, .i32⟩
  | 44 => ⟨S128x14x14, .i32⟩
  | 45 => ⟨S128x14x14, .i32⟩
  | 46 => ⟨S128x14x14, .i32⟩
  | 47 => ⟨S128x14x14x1, .i32⟩
  | 48 => ⟨S128x14x14x1, .i32⟩
  | 49 => ⟨S128x14x14x1, .i32⟩
  | 50 => ⟨S128x14x14x3, .i32⟩
  | 51 => ⟨S128x14x14x512, .f32⟩
  | 52 => ⟨S128x14x14x1, .f32⟩
  | 53 => ⟨S128x14x14x1, .f32⟩
  | 54 => ⟨S_, .f32⟩
  | 55 => ⟨S128x14x14x1, .f32⟩
  | 56 => ⟨S128x14x14x1, .f32⟩
  | 57 => ⟨S128x14x14x512, .f32⟩
  | 58 => ⟨S128x14x14x512, .f32⟩
  | 59 => ⟨S_, .f32⟩
  | 60 => ⟨S128x14x14x1, .f32⟩
  | 61 => ⟨S128x14x14x1, .f32⟩
  | 62 => ⟨S128x14x14x512, .f32⟩
  | 63 => ⟨S128x14x14x512, .f32⟩
  | 64 => ⟨S_, .f32⟩
  | 65 => ⟨S128x14x14x1, .f32⟩
  | 66 => ⟨S128x14x14x1, .f32⟩
  | 67 => ⟨S128x14x14x512, .f32⟩
  | 68 => ⟨S128x14x14x512, .f32⟩
  | 69 => ⟨S128x14x14x512, .f32⟩
  | 70 => ⟨S128x14x14x512, .f32⟩
  | 71 => ⟨S128x14x14x512, .f32⟩
  | 72 => ⟨S128x14x14x512, .f32⟩
  | 73 => ⟨S128x14x14x512, .f32⟩
  | 74 => ⟨S_, .f32⟩
  | 75 => ⟨S128x14x14x1, .f32⟩
  | 76 => ⟨S128x14x14x1, .f32⟩
  | 77 => ⟨S128x14x14x512, .f32⟩
  | 78 => ⟨S128x14x14x512, .f32⟩
  | 79 => ⟨S128x14x14x512, .f32⟩
  | 80 => ⟨S128x14x14x512, .f32⟩
  | 81 => ⟨S128x14x14x512, .f32⟩
  | 82 => ⟨S128x14x14x512, .f32⟩
  | 83 => ⟨S128x14x14x512, .f32⟩
  | 84 => ⟨S128x14x14x512, .f32⟩
  | 85 => ⟨S128x512x14x14, .f32⟩
  | _ => ⟨S128x512x37x37, .f32⟩

abbrev hbmTy (i : Nat) : BufTy := match i / 128 with
  | 0 => hbmTy0_0 i
  | 1 => hbmTy0_1 i
  | _ => ⟨S128x512x37x37, .f32⟩

abbrev bufTy : (tb : Table) → Fin (tcTables nBuf tb) → BufTy
  | .hbm, ⟨i, _⟩ => hbmTy i
  | _, _ => ⟨S128x512x37x37, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_c_5 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_c_8 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v25 : Ref sig .tc := ⟨.hbm, 48, rfl⟩
abbrev main_v26 : Ref sig .tc := ⟨.hbm, 49, rfl⟩
abbrev main_c_9 : Ref sig .tc := ⟨.hbm, 50, rfl⟩
abbrev main_c_10 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v27 : Ref sig .tc := ⟨.hbm, 57, rfl⟩
abbrev main_v28 : Ref sig .tc := ⟨.hbm, 58, rfl⟩
abbrev main_c_11 : Ref sig .tc := ⟨.hbm, 59, rfl⟩
abbrev main_v29 : Ref sig .tc := ⟨.hbm, 60, rfl⟩
abbrev main_v30 : Ref sig .tc := ⟨.hbm, 61, rfl⟩
abbrev main_c_12 : Ref sig .tc := ⟨.hbm, 62, rfl⟩
abbrev main_c_13 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_c_14 : Ref sig .tc := ⟨.hbm, 72, rfl⟩
abbrev main_v34 : Ref sig .tc := ⟨.hbm, 73, rfl⟩
abbrev main_v35 : Ref sig .tc := ⟨.hbm, 74, rfl⟩
abbrev main_c_15 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_c_16 : Ref sig .tc := ⟨.hbm, 79, rfl⟩
abbrev main_v39 : Ref sig .tc := ⟨.hbm, 80, rfl⟩
abbrev main_v40 : Ref sig .tc := ⟨.hbm, 81, rfl⟩
abbrev main_c_17 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_c_18 : Ref sig .tc := ⟨.hbm, 86, rfl⟩
abbrev main_v44 : Ref sig .tc := ⟨.hbm, 87, rfl⟩
abbrev main_v45 : Ref sig .tc := ⟨.hbm, 88, rfl⟩
abbrev main_c_19 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_c_20 : Ref sig .tc := ⟨.hbm, 99, rfl⟩
abbrev main_v55 : Ref sig .tc := ⟨.hbm, 100, rfl⟩
abbrev main_v56 : Ref sig .tc := ⟨.hbm, 101, rfl⟩
abbrev main_c_21 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_22 : Ref sig .tc := ⟨.hbm, 106, rfl⟩
abbrev main_v60 : Ref sig .tc := ⟨.hbm, 107, rfl⟩
abbrev main_v61 : Ref sig .tc := ⟨.hbm, 108, rfl⟩
abbrev main_c_23 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_c_24 : Ref sig .tc := ⟨.hbm, 113, rfl⟩
abbrev main_v65 : Ref sig .tc := ⟨.hbm, 114, rfl⟩
abbrev main_v66 : Ref sig .tc := ⟨.hbm, 115, rfl⟩
abbrev main_c_25 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_c_26 : Ref sig .tc := ⟨.hbm, 126, rfl⟩
abbrev main_v76 : Ref sig .tc := ⟨.hbm, 127, rfl⟩
abbrev main_v77 : Ref sig .tc := ⟨.hbm, 128, rfl⟩
abbrev main_c_27 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_c_28 : Ref sig .tc := ⟨.hbm, 133, rfl⟩
abbrev main_v81 : Ref sig .tc := ⟨.hbm, 134, rfl⟩
abbrev main_v82 : Ref sig .tc := ⟨.hbm, 135, rfl⟩
abbrev main_c_29 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_c_30 : Ref sig .tc := ⟨.hbm, 140, rfl⟩
abbrev main_v86 : Ref sig .tc := ⟨.hbm, 141, rfl⟩
abbrev main_v87 : Ref sig .tc := ⟨.hbm, 142, rfl⟩
abbrev main_c_31 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_c_32 : Ref sig .tc := ⟨.hbm, 153, rfl⟩
abbrev main_v97 : Ref sig .tc := ⟨.hbm, 154, rfl⟩
abbrev main_v98 : Ref sig .tc := ⟨.hbm, 155, rfl⟩
abbrev main_c_33 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_c_34 : Ref sig .tc := ⟨.hbm, 160, rfl⟩
abbrev main_v102 : Ref sig .tc := ⟨.hbm, 161, rfl⟩
abbrev main_v103 : Ref sig .tc := ⟨.hbm, 162, rfl⟩
abbrev main_c_35 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_c_36 : Ref sig .tc := ⟨.hbm, 167, rfl⟩
abbrev main_v107 : Ref sig .tc := ⟨.hbm, 168, rfl⟩
abbrev main_v108 : Ref sig .tc := ⟨.hbm, 169, rfl⟩
abbrev main_c_37 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_cst_38 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_cst_39 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_cst_40 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_cst_41 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩

abbrev nD : Nat := 1
abbrev τ : Topo := Topo.v7x

variable {F : FTy → Type} [FloatOps F]

class Facts₀ : Prop where
  slices_S128x14x14x2_S128x14x14x1_0_0_0_0 : S128x14x14x2.Slices ![0, 0, 0, 0] S128x14x14x1
  shapeCasts_S128x14x14x1_S128x14x14 : S128x14x14x1.ShapeCasts S128x14x14
  bcast_S_S128x14x14 : S_.BroadcastsInDim S128x14x14 (![] : Fin 0 → Fin S128x14x14.rank)
  slices_S128x14x14x2_S128x14x14x1_0_0_0_1 : S128x14x14x2.Slices ![0, 0, 0, 1] S128x14x14x1
  bcast_S128_S128x1x1_0 : S128.BroadcastsInDim S128x1x1 (![0] : Fin 1 → Fin S128x1x1.rank)
  bcast_S_S128x1x1 : S_.BroadcastsInDim S128x1x1 (![] : Fin 0 → Fin S128x1x1.rank)
  bcast_S128x1x1_S128x14x14_0_1_2 : S128x1x1.BroadcastsInDim S128x14x14 (![0, 1, 2] : Fin 3 → Fin S128x14x14.rank)
  bcast_S128x14x14_S128x14x14x1_0_1_2 : S128x14x14.BroadcastsInDim S128x14x14x1 (![0, 1, 2] : Fin 3 → Fin S128x14x14x1.rank)
  concatenates_S128x14x14x1_S128x14x14x1_S128x14x14x1_S128x14x14x3_d3 : Shape.Concatenates [S128x14x14x1, S128x14x14x1, S128x14x14x1] S128x14x14x3 3
  bcast_S_S128x14x14x1 : S_.BroadcastsInDim S128x14x14x1 (![] : Fin 0 → Fin S128x14x14x1.rank)
  bcast_S128x14x14x1_S128x14x14x512_0_1_2_3 : S128x14x14x1.BroadcastsInDim S128x14x14x512 (![0, 1, 2, 3] : Fin 4 → Fin S128x14x14x512.rank)
  transposes_S128x14x14x512_S128x512x14x14_0_3_1_2 : S128x14x14x512.Transposes [0, 3, 1, 2] S128x512x14x14
  gather_S128x512x37x37_S128x14x14x3_S128x14x14x512_3_023_n_n_023_3_151211_wf : GatherDims.WF S128x512x37x37 S128x14x14x3 S128x14x14x512 [3] [0, 2, 3] [] [0, 2, 3] [] 3 ![1, 512, 1, 1]

variable [Facts₀]

def gather_S128x512x37x37_S128x14x14x3_S128x14x14x512_3_023_n_n_023_3_151211 : GatherDims S128x512x37x37 S128x14x14x3 S128x14x14x512 where
  offsetDims := [3]
  collapsedSliceDims := [0, 2, 3]
  operandBatchingDims := []
  startIndicesBatchingDims := []
  startIndexMap := [0, 2, 3]
  indexVectorDim := 3
  sliceSizes := ![1, 512, 1, 1]
  wf := gather_S128x512x37x37_S128x14x14x3_S128x14x14x512_3_023_n_n_023_3_151211_wf

class Facts : Prop extends Facts₀ where

variable [Facts]
-- ==== Proof.CropDefs.lean ====
/-
  The quantities of a bilinear crop on a 37 × 37 feature map, written on the extended reals exactly as the two
  programs compute them: the sampling position of a normalised coordinate g in [-1, 1] is (g + 1)·18 — the
  dense form clamps it into [0, 36] first, the sparse form computes it as ((g + 1)·36)·½ —, the dense form weighs
  node h by the hat function max(0, 1 − |h − p|), and the sparse form clips the integer neighbours ⌊p⌋ and ⌊p⌋ + 1
  into [0, 36].
-/
import Idealize.ShloMosaic.PureOps.Ideal
import Idealize.ShloMosaic.Lib.ValueIdx

noncomputable section

namespace Cert.CropBridge

open Idealize.ShloMosaic Idealize.ShloMosaic.ValueIdx

/-- The float constants 0, 1, ½, 18 and 36 as the programs spell them. -/
abbrev e0 : EReal := Ideal.ofBits .f32 0x00000000#32
abbrev e1 : EReal := Ideal.ofBits .f32 0x3F800000#32
abbrev eHalf : EReal := Ideal.ofBits .f32 0x3F000000#32
abbrev e18 : EReal := Ideal.ofBits .f32 0x41900000#32
abbrev e36 : EReal := Ideal.ofBits .f32 0x42100000#32

/-- The dense form's sampling position: (g + 1)·18 clamped into [0, 36]. -/
def pos (g : EReal) : EReal := min e36 (max e0 ((g + e1) * e18))

/-- The distance |h − p|, as the maximum of the difference and its negative. -/
def dist (h p : EReal) : EReal := max (h - p) (-(h - p))

/-- The hat weight max(0, 1 − |h − p|) of node h at position p. -/
def hat (h p : EReal) : EReal := max e0 (e1 - dist h p)

/-- The sparse form's sampling position ((g + 1)·36)·½. -/
def rpos (g : EReal) : EReal := ((g + e1) * e36) * eHalf

/-- The sparse form's integer clip into [0, 36]: signed minimum with 36 of the signed maximum with 0. -/
def clipw (b : BitVec 32) : BitVec 32 := IntOp.minsi 36#32 (IntOp.maxsi 0#32 b)

/-- The crop in dense form at RoI r, channel ch and output pixel (gy, gx): the sum over the 1369 nodes k of the feature
    map's entry at row k / 37 and column k % 37, times the row hat at the pixel's clamped row position, times the column
    hat at its clamped column position (the positions from channels 0 and 1 of the grid at the pixel). -/
def cropAt (feat : (⟨4, ![128, 512, 37, 37]⟩ : Shape).Idx → EReal) (grid : (⟨4, ![128, 14, 14, 2]⟩ : Shape).Idx → EReal)
    (r : Fin 128) (ch : Fin 512) (gy gx : Fin 14) : EReal :=
  ∑ k : Fin 1369,
    feat (ix4 r ch (⟨k.val / 37, by have := k.isLt; omega⟩ : Fin 37) (⟨k.val % 37, by omega⟩ : Fin 37))
      * (hat ((((k.val / 37 : ℕ) : ℝ)) : EReal) (pos (grid (ix4 r gy gx (0 : Fin 2))))
          * max e0 (e1 - dist ((((k.val % 37 : ℕ) : ℝ)) : EReal) (pos (grid (ix4 r gy gx (1 : Fin 2))))))

/-- The whole cropped array [128, 512, 14, 14] in dense form. -/
def crop (feat : (⟨4, ![128, 512, 37, 37]⟩ : Shape).Idx → EReal) (grid : (⟨4, ![128, 14, 14, 2]⟩ : Shape).Idx → EReal) :
    (⟨4, ![128, 512, 14, 14]⟩ : Shape).Idx → EReal :=
  fun i => cropAt feat grid (i 0) (i 1) (i 2) (i 3)

end Cert.CropBridge

end
-- ==== Proof.KernelTables.lean ====
/-
  What the region finds in its four input arrays, read at an index.  The host flattens the feature map
  [128, 512, 37, 37] to [128, 512, 1369] and the sampling grid [128, 14, 14, 2] to [128, 196, 2] (row-major merges of
  trailing axes: node k of the flat map is row k / 37, column k % 37; pixel p of the flat grid is (p / 14, p % 14)),
  and builds two coordinate tables of the 1369 nodes, the row number k / 37 and the column number k % 37, by
  integer division and remainder of an iota by 37, converted to floats.
-/
import proofs.«165540_j53214644798048_2_alg».proof.Proof.Gen.KernelIdeal.Frame
import Idealize.ShloMosaic.Lib.ValueIdx
import Idealize.ShloMosaic.Lib.Pipeline.Value
import Idealize.ShloMosaic.Lib.StableHlo.Run
import Idealize.ShloMosaic.Lib.IdealHost

set_option synthInstance.maxSize 4096

noncomputable section

namespace Cert.KernelIdeal.CropValue

open Cert.KernelIdeal Cert.KernelIdeal.Gen Idealize.ShloMosaic Idealize.ShloMosaic.ValueIdx Idealize.ShloMosaic.TcCoe Idealize.SL.Sem Idealize.ShloMosaic.StableHlo

/-- The row number of every node as the host computes it: the signed quotient of the node number by 37, lowered by one
    where the signs of dividend and divisor differ and the remainder is not zero (floor division). -/
def rowWords : IVec S1369 32 :=
  select
    (andi
      (cmpi .ne (signi (iotaInDim S1369 32 0)) (broadcastInDim S1369 ![] bcast_S_S1369 (signi (id (constantI S_ 32 37#32)))))
      (cmpi .ne (Host.remsi (iotaInDim S1369 32 0) (broadcastInDim S1369 ![] bcast_S_S1369 (id (constantI S_ 32 37#32))))
        (broadcastInDim S1369 ![] bcast_S_S1369 (constantI S_ 32 0#32))))
    (subi (Host.divsi (iotaInDim S1369 32 0) (broadcastInDim S1369 ![] bcast_S_S1369 (id (constantI S_ 32 37#32))))
      (broadcastInDim S1369 ![] bcast_S_S1369 (constantI S_ 32 1#32)))
    (Host.divsi (iotaInDim S1369 32 0) (broadcastInDim S1369 ![] bcast_S_S1369 (id (constantI S_ 32 37#32))))

/-- The divisor of the remainder: 37, or 1 if it were 0. -/
def colDivisor : IVec S_ 32 :=
  select (cmpi .eq (id (constantI S_ 32 37#32)) (constantI S_ 32 0#32)) (constantI S_ 32 1#32) (id (constantI S_ 32 37#32))

/-- The column number of every node as the host computes it: the signed remainder by 37, raised by the divisor where
    its sign differs from the divisor's and it is not zero (the remainder of floor division). -/
def colWords : IVec S1369 32 :=
  select
    (andi
      (cmpi .ne
        (cmpi .slt (Host.remsi (iotaInDim S1369 32 0) (broadcastInDim S1369 ![] bcast_S_S1369 colDivisor))
          (broadcastInDim S1369 ![] bcast_S_S1369 (constantI S_ 32 0#32)))
        (broadcastInDim S1369 ![] bcast_S_S1369 (cmpi .slt colDivisor (constantI S_ 32 0#32))))
      (cmpi .ne (Host.remsi (iotaInDim S1369 32 0) (broadcastInDim S1369 ![] bcast_S_S1369 colDivisor))
        (broadcastInDim S1369 ![] bcast_S_S1369 (constantI S_ 32 0#32))))
    (addi (Host.remsi (iotaInDim S1369 32 0) (broadcastInDim S1369 ![] bcast_S_S1369 colDivisor))
      (broadcastInDim S1369 ![] bcast_S_S1369 colDivisor))
    (Host.remsi (iotaInDim S1369 32 0) (broadcastInDim S1369 ![] bcast_S_S1369 colDivisor))

/-- On the 1369 nodes the floor quotient is the natural quotient k / 37 (evaluated node by node). -/
theorem rowWords_toInt : ∀ k : Fin 1369, (rowWords (ix1 k)).toInt = ((k.val / 37 : ℕ) : ℤ) := by decide +kernel

/-- On the 1369 nodes the floor remainder is the natural remainder k % 37 (evaluated node by node). -/
theorem colWords_toInt : ∀ k : Fin 1369, (colWords (ix1 k)).toInt = ((k.val % 37 : ℕ) : ℤ) := by decide +kernel

variable {F : FTy → Type} [FloatOps F]
variable (m : (ℓ : Loc nD τ sig) → Buf (Elt F) ℓ)

/-- The region finds the feature map flattened. -/
theorem V_feat (c : Dev nD) : (V m c main_v0 : S128x512x1369.Idx → Elt F .f32)
    = shapeCast S128x512x1369 (m ((c : Thread nD τ).loc main_arg0)) shapeCasts_S128x512x37x37_S128x512x1369 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The region finds the sampling grid flattened. -/
theorem V_grid (c : Dev nD) : (V m c main_v1 : S128x196x2.Idx → Elt F .f32)
    = shapeCast S128x196x2 (m ((c : Thread nD τ).loc main_arg1)) shapeCasts_S128x14x14x2_S128x196x2 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

set_option maxHeartbeats 2000000 in
/-- The region finds the row table: the row words as floats, as one row. -/
theorem V_rows (c : Dev nD) : (V m c main_v5 : S1x1369.Idx → Elt F .f32)
    = shapeCast S1x1369 (sitofp .f32 rowWords) shapeCasts_S1369_S1x1369 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

set_option maxHeartbeats 2000000 in
/-- The region finds the column table: the column words as floats, as one row. -/
theorem V_cols (c : Dev nD) : (V m c main_v9 : S1x1369.Idx → Elt F .f32)
    = shapeCast S1x1369 (sitofp .f32 colWords) shapeCasts_S1369_S1x1369 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-- Node k of channel ch of RoI r in the flattened feature map is the map's entry (r, ch, k / 37, k % 37). -/
theorem V_feat_apply (c : Dev nD) (r : Fin 128) (ch : Fin 512) (k : Fin 1369) :
    (V m c main_v0 : S128x512x1369.Idx → Elt F .f32) (ix3 r ch k)
      = (m ((c : Thread nD τ).loc main_arg0) : S128x512x37x37.Idx → Elt F .f32)
          (ix4 r ch (⟨k.val / 37, by have := k.isLt; omega⟩ : Fin 37) (⟨k.val % 37, by omega⟩ : Fin 37)) := by
  rw [V_feat]
  refine shapeCast_apply _ _ _ _ ?_
  show (S128x512x37x37.rowMajor (ix4 r ch (⟨k.val / 37, by have := k.isLt; omega⟩ : Fin 37) (⟨k.val % 37, by omega⟩ : Fin 37))).val
    = (S128x512x1369.rowMajor (ix3 r ch k)).val
  rw [Shape.rowMajor_val_four, Shape.rowMajor_val_three]
  show ((r.val * 512 + ch.val) * 37 + k.val / 37) * 37 + k.val % 37 = (r.val * 512 + ch.val) * 1369 + k.val
  omega

/-- Pixel p, channel a of RoI r in the flattened grid is the grid's entry (r, p / 14, p % 14, a). -/
theorem V_grid_apply (c : Dev nD) (r : Fin 128) (p : Fin 196) (a : Fin 2) :
    (V m c main_v1 : S128x196x2.Idx → Elt F .f32) (ix3 r p a)
      = (m ((c : Thread nD τ).loc main_arg1) : S128x14x14x2.Idx → Elt F .f32)
          (ix4 r (⟨p.val / 14, by have := p.isLt; omega⟩ : Fin 14) (⟨p.val % 14, by omega⟩ : Fin 14) a) := by
  rw [V_grid]
  refine shapeCast_apply _ _ _ _ ?_
  show (S128x14x14x2.rowMajor (ix4 r (⟨p.val / 14, by have := p.isLt; omega⟩ : Fin 14) (⟨p.val % 14, by omega⟩ : Fin 14) a)).val
    = (S128x196x2.rowMajor (ix3 r p a)).val
  rw [Shape.rowMajor_val_four, Shape.rowMajor_val_three]
  show ((r.val * 14 + p.val / 14) * 14 + p.val % 14) * 2 + a.val = (r.val * 196 + p.val) * 2 + a.val
  omega

end Cert.KernelIdeal.CropValue

namespace Cert.KernelIdeal.CropValue

open Cert.KernelIdeal Cert.KernelIdeal.Gen Idealize.ShloMosaic Idealize.ShloMosaic.ValueIdx Idealize.ShloMosaic.TcCoe Idealize.SL.Sem Idealize.ShloMosaic.StableHlo

variable (m : (ℓ : Loc nD τ sig) → Buf (Elt Ideal) ℓ)

/-- At the ideal instance the row table holds the real number k / 37 at node k. -/
theorem V_rows_apply (c : Dev nD) (k : Fin 1369) :
    (V m c main_v5 : S1x1369.Idx → EReal) (ix2 (0 : Fin 1) k) = (((k.val / 37 : ℕ) : ℝ) : EReal) := by
  rw [V_rows]
  refine (shapeCast_apply _ _ (ix2 (0 : Fin 1) k) (ix1 k) ?_).trans ?_
  · rw [Shape.rowMajor_val_two, Shape.rowMajor_val_one]
    show k.val = 0 * 1369 + k.val
    omega
  · show (((rowWords (ix1 k)).toInt : ℝ) : EReal) = _
    rw [rowWords_toInt k]
    norm_cast

/-- At the ideal instance the column table holds the real number k % 37 at node k. -/
theorem V_cols_apply (c : Dev nD) (k : Fin 1369) :
    (V m c main_v9 : S1x1369.Idx → EReal) (ix2 (0 : Fin 1) k) = (((k.val % 37 : ℕ) : ℝ) : EReal) := by
  rw [V_cols]
  refine (shapeCast_apply _ _ (ix2 (0 : Fin 1) k) (ix1 k) ?_).trans ?_
  · rw [Shape.rowMajor_val_two, Shape.rowMajor_val_one]
    show k.val = 0 * 1369 + k.val
    omega
  · show (((colWords (ix1 k)).toInt : ℝ) : EReal) = _
    rw [colWords_toInt k]
    norm_cast

end Cert.KernelIdeal.CropValue

end
-- ==== Proof.KernelContract.lean ====
/-
  The body's matrix product read at an index.  For each RoI b of the block the kernel contracts the feature block
  [2, 512, 1369] with the weight block [2, 196, 1369] over the 1369 nodes (a batched product, the node axis contracted
  on both sides), into a zero accumulator: entry (b, ch, p) is the sum over nodes k of feature (b, ch, k) times weight
  (b, p, k).  The weight is the row hat times max(0, 1 − column distance).  At the ideal instance the roundings to
  bf16 on the way into the product are the identity.
-/
import proofs.«165540_j53214644798048_2_alg».proof.Proof.Gen.KernelIdeal.Skeleton
import proofs.«165540_j53214644798048_2_alg».proof.Proof.CropDefs
import Idealize.ShloMosaic.Lib.ValueIdx
import Idealize.ShloMosaic.Lib.Pipeline.Value
import Idealize.ShloMosaic.PureOps.Ideal.Laws

set_option synthInstance.maxSize 4096

noncomputable section

namespace Cert.KernelIdeal.CropValue

open Cert.KernelIdeal Cert.KernelIdeal.Gen Cert.CropBridge Idealize.ShloMosaic Idealize.ShloMosaic.ValueIdx

/-! ### The contraction's index maps, coordinate by coordinate -/

theorem lhs_0 (j : S2x512x196.Idx) (k : dot_S2x512x1369_S2x196x1369_S2x512x196_2_2_1_1_0_0.contr.Idx) : (dot_S2x512x1369_S2x196x1369_S2x512x196_2_2_1_1_0_0.lhsIdx j k 0).val = (j 0).val := by
  simp [DotDims.lhsIdx, dot_S2x512x1369_S2x196x1369_S2x512x196_2_2_1_1_0_0]; rfl
theorem lhs_1 (j : S2x512x196.Idx) (k : dot_S2x512x1369_S2x196x1369_S2x512x196_2_2_1_1_0_0.contr.Idx) : (dot_S2x512x1369_S2x196x1369_S2x512x196_2_2_1_1_0_0.lhsIdx j k 1).val = (j 1).val := by
  simp [DotDims.lhsIdx, dot_S2x512x1369_S2x196x1369_S2x512x196_2_2_1_1_0_0]; rfl
theorem lhs_2 (j : S2x512x196.Idx) (k : dot_S2x512x1369_S2x196x1369_S2x512x196_2_2_1_1_0_0.contr.Idx) : (dot_S2x512x1369_S2x196x1369_S2x512x196_2_2_1_1_0_0.lhsIdx j k 2).val = (k ⟨0, by decide⟩).val :=
  dot_S2x512x1369_S2x196x1369_S2x512x196_2_2_1_1_0_0.lhsIdx_val_of_single (cl := 2) rfl j k
theorem rhs_0 (j : S2x512x196.Idx) (k : dot_S2x512x1369_S2x196x1369_S2x512x196_2_2_1_1_0_0.contr.Idx) : (dot_S2x512x1369_S2x196x1369_S2x512x196_2_2_1_1_0_0.rhsIdx j k 0).val = (j 0).val := by
  simp [DotDims.rhsIdx, dot_S2x512x1369_S2x196x1369_S2x512x196_2_2_1_1_0_0]; rfl
theorem rhs_1 (j : S2x512x196.Idx) (k : dot_S2x512x1369_S2x196x1369_S2x512x196_2_2_1_1_0_0.contr.Idx) : (dot_S2x512x1369_S2x196x1369_S2x512x196_2_2_1_1_0_0.rhsIdx j k 1).val = (j 2).val := by
  simp [DotDims.rhsIdx, dot_S2x512x1369_S2x196x1369_S2x512x196_2_2_1_1_0_0]; rfl
theorem rhs_2 (j : S2x512x196.Idx) (k : dot_S2x512x1369_S2x196x1369_S2x512x196_2_2_1_1_0_0.contr.Idx) : (dot_S2x512x1369_S2x196x1369_S2x512x196_2_2_1_1_0_0.rhsIdx j k 2).val = (k ⟨0, by decide⟩).val :=
  dot_S2x512x1369_S2x196x1369_S2x512x196_2_2_1_1_0_0.rhsIdx_val_of_single (cr := 2) rfl j k

/-- The contracted index set is the 1369 nodes. -/
def nodeEquiv : dot_S2x512x1369_S2x196x1369_S2x512x196_2_2_1_1_0_0.contr.Idx ≃ Fin 1369 := contrEquiv1 dot_S2x512x1369_S2x196x1369_S2x512x196_2_2_1_1_0_0 1369 rfl rfl

/-- The left operand is read at (b, ch, k). -/
theorem lhs_ix (b : Fin 2) (ch : Fin 512) (p : Fin 196) (k : Fin 1369) :
    dot_S2x512x1369_S2x196x1369_S2x512x196_2_2_1_1_0_0.lhsIdx (ix3 b ch p) (nodeEquiv.symm k) = ix3 b ch k := by
  funext a; apply Fin.ext
  match a with
  | ⟨0, _⟩ => exact lhs_0 _ _
  | ⟨1, _⟩ => exact lhs_1 _ _
  | ⟨2, _⟩ => exact (lhs_2 _ _).trans (contrEquiv1_symm_val dot_S2x512x1369_S2x196x1369_S2x512x196_2_2_1_1_0_0 1369 rfl rfl k)

/-- The right operand is read at (b, p, k). -/
theorem rhs_ix (b : Fin 2) (ch : Fin 512) (p : Fin 196) (k : Fin 1369) :
    dot_S2x512x1369_S2x196x1369_S2x512x196_2_2_1_1_0_0.rhsIdx (ix3 b ch p) (nodeEquiv.symm k) = ix3 b p k := by
  funext a; apply Fin.ext
  match a with
  | ⟨0, _⟩ => exact rhs_0 _ _
  | ⟨1, _⟩ => exact rhs_1 _ _
  | ⟨2, _⟩ => exact (rhs_2 _ _).trans (contrEquiv1_symm_val dot_S2x512x1369_S2x196x1369_S2x512x196_2_2_1_1_0_0 1369 rfl rfl k)

/-- The stored value at (b, ch, p): the sum over the nodes of feature times row weight times column weight. -/
theorem pay1_apply (v36 v41 : FVec Ideal S2x196x1369 .f32) (v48 : Vec Ideal S2x512x1369 .f32)
    (b : Fin 2) (ch : Fin 512) (p : Fin 196) :
    k0_pay1 (F := Ideal) v36 v41 v48 (ix3 b ch p)
      = ∑ k : Fin 1369, v48 (ix3 b ch k) * (v36 (ix3 b p k) * max e0 (e1 - v41 (ix3 b p k))) := by
  unfold k0_pay1
  simp only [matmul]
  rw [Ideal.matmul_constant_zero_apply, ← Equiv.sum_comp nodeEquiv.symm]
  refine Finset.sum_congr rfl fun k _ => ?_
  rw [lhs_ix, rhs_ix, shapeCast_self]
  rfl

end Cert.KernelIdeal.CropValue

end
-- ==== Proof.LibRankThreeForms.lean ====
/-
  Layout operations on rank-3 arrays read at an index given by coordinates: a middle or trailing unit axis added,
  dropped or broadcast, the two leading axes merged into one or split again, and a slice along the last axis.
  Each is the general reading of a shape cast (equal row-major positions), a broadcast (the unit axis reads
  coordinate 0) or a slice (the offset is added) specialised to indices written by their coordinates.
-/
import Idealize.ShloMosaic.Lib.ValueIdx
import Idealize.ShloMosaic.Lib.Pipeline.Value

namespace Idealize.ShloMosaic.ValueIdx

open Idealize.ShloMosaic

variable {α : Type}

/-- Splitting the leading axis of an [a·b, c] array into [a, b, c]: entry (r, n, k) is entry (r·b + n, k). -/
theorem shapeCast_pc_abc_apply {a b c ab : ℕ} (x : (⟨2, ![ab, c]⟩ : Shape).Idx → α)
    (h : (⟨2, ![ab, c]⟩ : Shape).ShapeCasts ⟨3, ![a, b, c]⟩) (r : Fin a) (n : Fin b) (k : Fin c) (p : Fin ab)
    (hp : p.val = r.val * b + n.val) : shapeCast ⟨3, ![a, b, c]⟩ x h (ix3 r n k) = x (ix2 p k) :=
  shapeCast_apply x h _ _ (by
    rw [Shape.rowMajor_val_three, Shape.rowMajor_val_two]
    show p.val * c + k.val = (r.val * b + n.val) * c + k.val
    rw [hp])

/-- Merging the two leading axes of an [a, b, c] array into [a·b, c]: entry (r·b + n, k) is entry (r, n, k). -/
theorem shapeCast_abc_pc_apply {a b c ab : ℕ} (x : (⟨3, ![a, b, c]⟩ : Shape).Idx → α)
    (h : (⟨3, ![a, b, c]⟩ : Shape).ShapeCasts ⟨2, ![ab, c]⟩) (r : Fin a) (n : Fin b) (k : Fin c) (p : Fin ab)
    (hp : p.val = r.val * b + n.val) : shapeCast ⟨2, ![ab, c]⟩ x h (ix2 p k) = x (ix3 r n k) :=
  shapeCast_apply x h _ _ (by
    rw [Shape.rowMajor_val_three, Shape.rowMajor_val_two]
    show (r.val * b + n.val) * c + k.val = p.val * c + k.val
    rw [hp])

/-- A unit axis put in the middle of an [a, c] array: entry (r, u, k) of the [a, 1, c] array is entry (r, k). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (k : Fin c) :
    shapeCast ⟨3, ![a, 1, c]⟩ x h (ix3 r u k) = x (ix2 r k) :=
  shapeCast_apply x h _ _ (by
    have hu : u.val = 0 := by omega
    rw [Shape.rowMajor_val_three, Shape.rowMajor_val_two]
    show r.val * c + k.val = (r.val * 1 + u.val) * c + k.val
    rw [hu, Nat.mul_one, Nat.add_zero])

/-- A middle unit axis broadcast to length b: entry (r, n, k) reads entry (r, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (n : Fin b) (k : Fin c) :
    broadcastTo ⟨3, ![a, b, c]⟩ x h (ix3 r n k) = x (ix3 r (0 : Fin 1) k) := by
  refine broadcastTo_apply x h (ix3 r n k) (ix3 r (0 : Fin 1) k) fun ax => ?_
  match ax with
  | ⟨0, _⟩ =>
    show r.val = if a = 1 then 0 else r.val
    split
    · omega
    · rfl
  | ⟨1, _⟩ => rfl
  | ⟨2, _⟩ =>
    show k.val = if c = 1 then 0 else k.val
    split
    · omega
    · rfl

/-- A trailing unit axis dropped: entry (r, n) of the [a, b] array is entry (r, n, 0) of the [a, b, 1] one. -/
theorem shapeCast_ab1_ab_apply {a b : ℕ} (x : (⟨3, ![a, b, 1]⟩ : Shape).Idx → α)
    (h : (⟨3, ![a, b, 1]⟩ : Shape).ShapeCasts ⟨2, ![a, b]⟩) (r : Fin a) (n : Fin b) :
    shapeCast ⟨2, ![a, b]⟩ x h (ix2 r n) = x (ix3 r n (0 : Fin 1)) :=
  shapeCast_apply x h _ _ (by
    rw [Shape.rowMajor_val_three, Shape.rowMajor_val_two]
    show (r.val * b + n.val) * 1 + 0 = r.val * b + n.val
    rw [Nat.mul_one, Nat.add_zero])

/-- A trailing unit axis added: entry (r, n, u) of the [a, b, 1] array is entry (r, n) of the [a, b] one. -/
theorem shapeCast_ab_ab1_apply {a b : ℕ} (x : (⟨2, ![a, b]⟩ : Shape).Idx → α)
    (h : (⟨2, ![a, b]⟩ : Shape).ShapeCasts ⟨3, ![a, b, 1]⟩) (r : Fin a) (n : Fin b) (u : Fin 1) :
    shapeCast ⟨3, ![a, b, 1]⟩ x h (ix3 r n u) = x (ix2 r n) :=
  shapeCast_apply x h _ _ (by
    have hu : u.val = 0 := by omega
    rw [Shape.rowMajor_val_three, Shape.rowMajor_val_two]
    show r.val * b + n.val = (r.val * b + n.val) * 1 + u.val
    rw [hu, Nat.mul_one, Nat.add_zero])

/-- A trailing unit axis broadcast to length c: entry (r, n, k) reads entry (r, n, 0). -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (n : Fin b) (k : Fin c) :
    broadcastTo ⟨3, ![a, b, c]⟩ x h (ix3 r n k) = x (ix3 r n (0 : Fin 1)) := by
  refine broadcastTo_apply x h (ix3 r n k) (ix3 r n (0 : Fin 1)) fun ax => ?_
  match ax with
  | ⟨0, _⟩ =>
    show r.val = if a = 1 then 0 else r.val
    split
    · omega
    · rfl
  | ⟨1, _⟩ =>
    show n.val = if b = 1 then 0 else n.val
    split
    · omega
    · rfl
  | ⟨2, _⟩ => rfl

/-- A rank-3 array cut along its last axis from `o` reads, at (r, n, j), the source at (r, n, k) with k = o + j. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (r : Fin n0) (n : Fin n1) (j : Fin m) (k : Fin n2) (hk : k.val = o + j.val) :
    extractStridedSlice ⟨3, ![n0, n1, m]⟩ ![0, 0, o] X h (ix3 r n j) = X (ix3 r n k) :=
  extractStridedSlice_apply _ _ _ _ _ (fun ax => by
    match ax with
    | ⟨0, _⟩ => exact (Nat.zero_add _).symm
    | ⟨1, _⟩ => exact (Nat.zero_add _).symm
    | ⟨2, _⟩ => exact hk)

end Idealize.ShloMosaic.ValueIdx
-- ==== Proof.LibRankThreeLeadingForms.lean ====
/-
  Layout operations on rank-3 arrays whose LEADING axes are units, read at an index given by coordinates: one
  [b, c] slab broadcast over a new leading axis, a vector placed on the last axis of a [1, 1, c] array, and that array
  broadcast over both leading axes; and a MIDDLE unit axis dropped by a shape cast. A broadcast reads coordinate 0 on
  every unit axis of its operand; a shape cast keeps the row-major position.
-/
import Idealize.ShloMosaic.Lib.ValueIdx
import Idealize.ShloMosaic.Lib.Pipeline.Value

namespace Idealize.ShloMosaic.ValueIdx

open Idealize.ShloMosaic

variable {α : Type}

/-- A leading unit axis broadcast to length a: entry (r, n, k) reads entry (0, n, k). -/
theorem broadcastTo_1bc_abc_apply {a b c : ℕ} (x : (⟨3, ![1, b, c]⟩ : Shape).Idx → α)
    (h : (⟨3, ![1, b, c]⟩ : Shape).Broadcasts ⟨3, ![a, b, c]⟩) (r : Fin a) (n : Fin b) (k : Fin c) :
    broadcastTo ⟨3, ![a, b, c]⟩ x h (ix3 r n k) = x (ix3 (0 : Fin 1) n k) := by
  refine broadcastTo_apply x h (ix3 r n k) (ix3 (0 : Fin 1) n k) fun ax => ?_
  match ax with
  | ⟨0, _⟩ => rfl
  | ⟨1, _⟩ =>
    show n.val = if b = 1 then 0 else n.val
    split
    · omega
    · rfl
  | ⟨2, _⟩ =>
    show k.val = if c = 1 then 0 else k.val
    split
    · omega
    · rfl

/-- A vector placed on the last axis of a [1, 1, c] array: entry (u, v, k) is entry k. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    simp)

/-- Both leading unit axes broadcast: entry (r, n, k) reads entry (0, 0, k). -/
theorem broadcastTo_11c_abc_apply {a b c : ℕ} (x : (⟨3, ![1, 1, c]⟩ : Shape).Idx → α)
    (h : (⟨3, ![1, 1, c]⟩ : Shape).Broadcasts ⟨3, ![a, b, c]⟩) (r : Fin a) (n : Fin b) (k : Fin c) :
    broadcastTo ⟨3, ![a, b, c]⟩ x h (ix3 r n k) = x (ix3 (0 : Fin 1) (0 : Fin 1) k) := by
  refine broadcastTo_apply x h (ix3 r n k) (ix3 (0 : Fin 1) (0 : Fin 1) k) fun ax => ?_
  match ax with
  | ⟨0, _⟩ => rfl
  | ⟨1, _⟩ => rfl
  | ⟨2, _⟩ =>
    show k.val = if c = 1 then 0 else k.val
    split
    · omega
    · rfl

/-- A middle unit axis dropped: entry (r, k) of the [a, c] array is entry (r, 0, k) of the [a, 1, c] one. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (k : Fin c) :
    shapeCast ⟨2, ![a, c]⟩ x h (ix2 r k) = x (ix3 r (0 : Fin 1) k) :=
  shapeCast_apply x h _ _ (by
    rw [Shape.rowMajor_val_three, Shape.rowMajor_val_two]
    show (r.val * 1 + 0) * c + k.val = r.val * c + k.val
    rw [Nat.mul_one, Nat.add_zero])

end Idealize.ShloMosaic.ValueIdx
-- ==== Proof.KernelWeights.lean ====
/-
  The two weight factors of the body read at an index.  For RoI b of the block, output pixel p and node k the kernel
  takes the two coordinates of pixel p from the grid block, turns each into a sampling position (g + 1)·18 clamped
  into [0, 36], and measures it against the node's row number (from the row table) and column number (from the column
  table): the row factor is the hat max(0, 1 − |row − y|); of the column factor this part of the body computes the
  distance |column − x|, and the product part finishes the hat.
-/
import proofs.«165540_j53214644798048_2_alg».proof.Proof.Gen.KernelIdeal.Skeleton
import proofs.«165540_j53214644798048_2_alg».proof.Proof.CropDefs
import proofs.«165540_j53214644798048_2_alg».proof.Proof.LibRankThreeForms
import proofs.«165540_j53214644798048_2_alg».proof.Proof.LibRankThreeLeadingForms
import Idealize.ShloMosaic.Lib.ValueIdx
import Idealize.ShloMosaic.Lib.Pipeline.Value

set_option synthInstance.maxSize 4096

noncomputable section

namespace Cert.KernelIdeal.CropValue

open Cert.KernelIdeal Cert.KernelIdeal.Gen Cert.CropBridge Idealize.ShloMosaic Idealize.ShloMosaic.ValueIdx

/-- A row [1, c] given a second leading unit axis: entry (u, v, k) of the [1, 1, c] array is entry (0, k) of the row. -/
theorem shapeCast_1c_11c_apply {α : Type} {c : ℕ} (x : (⟨2, ![1, c]⟩ : Shape).Idx → α)
    (h : (⟨2, ![1, c]⟩ : Shape).ShapeCasts ⟨3, ![1, 1, c]⟩) (u v : Fin 1) (k : Fin c) :
    shapeCast ⟨3, ![1, 1, c]⟩ x h (ix3 u v k) = x (ix2 (0 : Fin 1) k) :=
  shapeCast_apply x h _ _ (by
    have hu : u.val = 0 := by omega
    have hv : v.val = 0 := by omega
    rw [Shape.rowMajor_val_three, Shape.rowMajor_val_two]
    show 0 * c + k.val = (u.val * 1 + v.val) * c + k.val
    rw [hu, hv])

/-- The clamped sampling position of coordinate a (0: rows, 1: columns) of pixel p of RoI b, from the grid block. -/
theorem position_apply (v0 : Vec Ideal S2x196x2 .f32) (b : Fin 2) (p : Fin 196) (o : ℕ) (a : Fin 2) (ha : a.val = o + 0)
    (hs : S2x196x2.Slices ![0, 0, o] S2x196x1) :
    minimumf (broadcast S2x196 (Ideal.ofBits .f32 0x42100000#32))
        (maximumf (broadcast S2x196 (Ideal.ofBits .f32 0x00000000#32))
          (mulf
            (addf (shapeCast S2x196 (extractStridedSlice S2x196x1 ![0, 0, o] (shapeCast S2x196x2 v0 shapeCasts_S2x196x2_S2x196x2) hs)
                shapeCasts_S2x196x1_S2x196)
              (broadcast S2x196 (Ideal.ofBits .f32 0x3F800000#32)))
            (broadcast S2x196 (Ideal.ofBits .f32 0x41900000#32)))) (ix2 b p)
      = pos (v0 (ix3 b p a)) := by
  simp only [minimumf, maximumf, mulf, addf, broadcast]
  rw [shapeCast_ab1_ab_apply, slice3_axis2_apply o _ hs b p (0 : Fin 1) a ha, shapeCast_self]
  rfl

/-- The row factor at (b, p, k): the hat of the node's row number at the pixel's clamped row position. -/
theorem pay3_apply (v0 : Vec Ideal S2x196x2 .f32) (v22 : Vec Ideal S1x1369 .f32) (b : Fin 2) (p : Fin 196) (k : Fin 1369) :
    k0_pay3 (F := Ideal) v0 v22 (ix3 b p k) = hat (v22 (ix2 (0 : Fin 1) k)) (pos (v0 (ix3 b p (0 : Fin 2)))) := by
  unfold k0_pay3 k0_pay2
  simp only [maximumf, subf, absf, broadcast, Scalar.ofBits]
  rw [broadcastTo_11c_abc_apply, shapeCast_1c_11c_apply, shapeCast_self, broadcastTo_ab1_abc_apply, shapeCast_ab_ab1_apply,
    position_apply v0 b p 0 (0 : Fin 2) rfl]
  rfl

/-- The column distance at (b, p, k): the node's column number against the pixel's clamped column position. -/
theorem pay4_apply (v0 : Vec Ideal S2x196x2 .f32) (v25 : Vec Ideal S1x1369 .f32) (b : Fin 2) (p : Fin 196) (k : Fin 1369) :
    k0_pay4 (F := Ideal) v0 v25 (ix3 b p k) = dist (v25 (ix2 (0 : Fin 1) k)) (pos (v0 (ix3 b p (1 : Fin 2)))) := by
  unfold k0_pay4 k0_pay2
  simp only [subf, absf, broadcast, Scalar.ofBits]
  rw [broadcastTo_11c_abc_apply, shapeCast_1c_11c_apply, shapeCast_self, broadcastTo_ab1_abc_apply, shapeCast_ab_ab1_apply,
    position_apply v0 b p 1 (1 : Fin 2) rfl]
  rfl

end Cert.KernelIdeal.CropValue

end
-- ==== Proof.KernelValue.lean ====
/-
  The array the kernel's run leaves, as one function of the two arguments.  Grid point t handles RoIs 2t and 2t + 1:
  its feature block is rows 2t, 2t + 1 of the flattened map, its grid block the same rows of the flattened grid, the two
  coordinate tables are whole at every point, and what it writes back is rows 2t, 2t + 1 of the output.  Entry
  (b, ch, p) of the written block is the dense crop of RoI 2t + b at channel ch and pixel (p / 14, p % 14); the 64 blocks
  tile the [128, 512, 196] output, so after the run it holds the dense crop everywhere, and the closing reshape to
  [128, 512, 14, 14] puts pixel gy·14 + gx at (gy, gx).
-/
import proofs.«165540_j53214644798048_2_alg».proof.Proof.Gen.KernelIdeal.Frame
import proofs.«165540_j53214644798048_2_alg».proof.Proof.CropDefs
import proofs.«165540_j53214644798048_2_alg».proof.Proof.KernelTables
import proofs.«165540_j53214644798048_2_alg».proof.Proof.KernelContract
import proofs.«165540_j53214644798048_2_alg».proof.Proof.KernelWeights
import Idealize.ShloMosaic.Lib.ValueIdx
import Idealize.ShloMosaic.Lib.Pipeline.Value
import Idealize.ShloMosaic.Lib.StableHlo.Run

set_option synthInstance.maxSize 4096
set_option maxRecDepth 16384

noncomputable section

namespace Cert.KernelIdeal.CropValue

open Cert.KernelIdeal Cert.KernelIdeal.Gen Cert.CropBridge Idealize.ShloMosaic Idealize.ShloMosaic.ValueIdx Idealize.ShloMosaic.TcCoe Idealize.SL.Sem Idealize.ShloMosaic.StableHlo
open Idealize.ShloMosaic.Pipeline (Dat)

theorem zero3 : (![0, 0, 0] : Fin 3 → Nat) = fun _ => 0 := funext fun a => by fin_cases a <;> rfl
theorem zero2 : (![0, 0] : Fin 2 → Nat) = fun _ => 0 := funext fun a => by fin_cases a <;> rfl

/-- What the body stores at (b, ch, p), from its four loaded blocks: the sum over the nodes of the feature block's
    entry times the row hat times the column hat, the hats at the pixel's two clamped positions. -/
theorem body_apply (x0 : Vec Ideal S2x512x1369 .f32) (x1 : Vec Ideal S2x196x2 .f32) (x2 x3 : Vec Ideal S1x1369 .f32)
    (b : Fin 2) (ch : Fin 512) (p : Fin 196) :
    out0_4 (F := Ideal) x0 x1 x2 x3 (ix3 b ch p)
      = ∑ k : Fin 1369, x0 (ix3 b ch k) * (hat (x2 (ix2 (0 : Fin 1) k)) (pos (x1 (ix3 b p (0 : Fin 2))))
          * max e0 (e1 - dist (x3 (ix2 (0 : Fin 1) k)) (pos (x1 (ix3 b p (1 : Fin 2)))))) := by
  unfold out0_4
  rw [View.canon_unit_zero zero3]
  simp only [View.ld_unit_zero (S := S2x196x2) zero3, View.ld_unit_zero (S := S1x1369) zero2, View.ld_unit_zero (S := S2x512x1369) zero3]
  rw [pay1_apply]
  refine Finset.sum_congr rfl fun k _ => ?_
  rw [pay3_apply, pay4_apply]

/-- The output array [128, 512, 196] in dense form: pixel p is (p / 14, p % 14). -/
def dense (feat : S128x512x37x37.Idx → EReal) (grid : S128x14x14x2.Idx → EReal) : S128x512x196.Idx → EReal :=
  fun i => cropAt feat grid (i 0) (i 1) (⟨(i 2).val / 14, by have h : (i 2).val < 196 := (i 2).isLt; omega⟩ : Fin 14)
    (⟨(i 2).val % 14, by omega⟩ : Fin 14)

/-- The printed index maps over the 64 points: the feature, grid and output windows move with the point along the
    RoI axis and stay at 0 on the others; the two table windows stay at (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem point_lt (t : Fin cfg0.N) : t.val < 64 := lt_of_lt_of_eq t.isLt N_0

variable (m : (ℓ : Loc nD τ sig) → Buf (Elt Ideal) ℓ) (ρ : Dev nD → PrngReg)

/-- Entry (b, ch, k) of point t's feature block is entry (2t + b, ch, k) of the flattened map. -/
theorem feat_blk (c : Dev nD) (t : Fin cfg0.N) (b : Fin 2) (ch : Fin 512) (k : Fin 1369) :
    (iblk m c 0 t : Vec Ideal S2x512x1369 .f32) (ix3 b ch k)
      = (V m c main_v0 : S128x512x1369.Idx → EReal) (ix3 (⟨2 * t.val + b.val, by have := point_lt t; omega⟩ : Fin 128) ch k) := by
  obtain ⟨e0, e1, e2, -⟩ := idx_facts t
  have ht := point_lt t
  have he : ((cfg0.win 0).blk t).view.emb (ix3 b ch k) = ix3 (⟨2 * t.val + b.val, by omega⟩ : Fin 128) ch k := by
    funext a; apply Fin.ext
    match a with
    | ⟨0, _⟩ => show win0_0.index t (0 : Fin 3) * 2 + 1 * b.val = 2 * t.val + b.val; omega
    | ⟨1, _⟩ => show win0_0.index t (1 : Fin 3) * 512 + 1 * ch.val = ch.val; omega
    | ⟨2, _⟩ => show win0_0.index t (2 : Fin 3) * 1369 + 1 * k.val = k.val; omega
  show V m c main_v0 (((cfg0.win 0).blk t).view.emb (ix3 b ch k)) = _
  rw [he]

/-- Entry (b, p, a) of point t's grid block is entry (2t + b, p, a) of the flattened grid. -/
theorem grid_blk (c : Dev nD) (t : Fin cfg0.N) (b : Fin 2) (p : Fin 196) (a : Fin 2) :
    (iblk m c 1 t : Vec Ideal S2x196x2 .f32) (ix3 b p a)
      = (V m c main_v1 : S128x196x2.Idx → EReal) (ix3 (⟨2 * t.val + b.val, by have := point_lt t; omega⟩ : Fin 128) p a) := by
  obtain ⟨-, -, -, e0, e1, e2, -⟩ := idx_facts t
  have ht := point_lt t
  have he : ((cfg0.win 1).blk t).view.emb (ix3 b p a) = ix3 (⟨2 * t.val + b.val, by omega⟩ : Fin 128) p a := by
    funext d; apply Fin.ext
    match d with
    | ⟨0, _⟩ => show win0_1.index t (0 : Fin 3) * 2 + 1 * b.val = 2 * t.val + b.val; omega
    | ⟨1, _⟩ => show win0_1.index t (1 : Fin 3) * 196 + 1 * p.val = p.val; omega
    | ⟨2, _⟩ => show win0_1.index t (2 : Fin 3) * 2 + 1 * a.val = a.val; omega
  show V m c main_v1 (((cfg0.win 1).blk t).view.emb (ix3 b p a)) = _
  rw [he]

/-- The row table's block at every point is the whole table. -/
theorem rows_blk (c : Dev nD) (t : Fin cfg0.N) (k : Fin 1369) :
    (iblk m c 2 t : Vec Ideal S1x1369 .f32) (ix2 (0 : Fin 1) k) = (V m c main_v5 : S1x1369.Idx → EReal) (ix2 (0 : Fin 1) k) := by
  obtain ⟨-, -, -, -, -, -, e0, e1, -⟩ := idx_facts t
  have he : ((cfg0.win 2).blk t).view.emb (ix2 (0 : Fin 1) k) = ix2 (0 : Fin 1) k := by
    funext d; apply Fin.ext
    match d with
    | ⟨0, _⟩ => show win0_2.index t (0 : Fin 2) * 1 + 1 * 0 = 0; omega
    | ⟨1, _⟩ => show win0_2.index t (1 : Fin 2) * 1369 + 1 * k.val = k.val; omega
  show V m c main_v5 (((cfg0.win 2).blk t).view.emb (ix2 (0 : Fin 1) k)) = _
  rw [he]

/-- The column table's block at every point is the whole table. -/
theorem cols_blk (c : Dev nD) (t : Fin cfg0.N) (k : Fin 1369) :
    (iblk m c 3 t : Vec Ideal S1x1369 .f32) (ix2 (0 : Fin 1) k) = (V m c main_v9 : S1x1369.Idx → EReal) (ix2 (0 : Fin 1) k) := by
  obtain ⟨-, -, -, -, -, -, -, -, e0, e1, -⟩ := idx_facts t
  have he : ((cfg0.win 3).blk t).view.emb (ix2 (0 : Fin 1) k) = ix2 (0 : Fin 1) k := by
    funext d; apply Fin.ext
    match d with
    | ⟨0, _⟩ => show win0_3.index t (0 : Fin 2) * 1 + 1 * 0 = 0; omega
    | ⟨1, _⟩ => show win0_3.index t (1 : Fin 2) * 1369 + 1 * k.val = k.val; omega
  show V m c main_v9 (((cfg0.win 3).blk t).view.emb (ix2 (0 : Fin 1) k)) = _
  rw [he]

/-- Entry (b, ch, p) of point t's output block sits at (2t + b, ch, p) of the output array. -/
theorem out_emb (t : Fin cfg0.N) (b : Fin 2) (ch : Fin 512) (p : Fin 196) :
    ((cfg0.win 4).blk t).view.emb (ix3 b ch p) = ix3 (⟨2 * t.val + b.val, by have := point_lt t; omega⟩ : Fin 128) ch p := by
  obtain ⟨-, -, -, -, -, -, -, -, -, -, e0, e1, e2⟩ := idx_facts t
  have ht := point_lt t
  funext d; apply Fin.ext
  match d with
  | ⟨0, _⟩ => show win0_4.index t (0 : Fin 3) * 2 + 1 * b.val = 2 * t.val + b.val; omega
  | ⟨1, _⟩ => show win0_4.index t (1 : Fin 3) * 512 + 1 * ch.val = ch.val; omega
  | ⟨2, _⟩ => show win0_4.index t (2 : Fin 3) * 196 + 1 * p.val = p.val; omega

/-- What point t writes back is its block of the dense crop of the two arguments. -/
theorem flushed_eq (c : Dev nD) (t : Fin cfg0.N) :
    (dats m 0 c).flushed 4 t = ((cfg0.win 4).blk t).view.read (Elt Ideal)
      (dense (m ((c : Thread nD τ).loc main_arg0)) (m ((c : Thread nD τ).loc main_arg1))) := by
  show (cfg0.win 4).cut (grid0.coords t) ((dats m 0 c).after 4 t) = _
  rw [after0_4]
  funext j
  obtain ⟨b, ch, p, rfl⟩ : ∃ (b : Fin 2) (ch : Fin 512) (p : Fin 196), j = ix3 b ch p :=
    ⟨j 0, j 1, j 2, eq_ix3 (n0 := 2) (n1 := 512) (n2 := 196) j⟩
  show out0_4 (iblk m c 0 t) (iblk m c 1 t) (iblk m c 2 t) (iblk m c 3 t) (ix3 b ch p)
    = dense (m ((c : Thread nD τ).loc main_arg0)) (m ((c : Thread nD τ).loc main_arg1)) (((cfg0.win 4).blk t).view.emb (ix3 b ch p))
  rw [out_emb t b ch p]
  refine (body_apply (iblk m c 0 t) (iblk m c 1 t) (iblk m c 2 t) (iblk m c 3 t) b ch p).trans ?_
  show _ = cropAt _ _ (⟨2 * t.val + b.val, by have := point_lt t; omega⟩ : Fin 128) ch
    (⟨p.val / 14, by have := p.isLt; omega⟩ : Fin 14) (⟨p.val % 14, by omega⟩ : Fin 14)
  unfold cropAt
  refine Finset.sum_congr rfl fun k _ => ?_
  rw [feat_blk, grid_blk, grid_blk, rows_blk, cols_blk, V_feat_apply, V_grid_apply, V_grid_apply, V_rows_apply, V_cols_apply]

/-- An index of the output array is in point t's block iff each coordinate is in the block's range. -/
theorem mem_blk (t : Fin cfg0.N) (i : S128x512x196.Idx) :
    i ∈ ((cfg0.win 4).blk t).view.set ↔ ∀ a : Fin 3, win0_4.index t a * S2x512x196.size a ≤ (i a).val
      ∧ (i a).val < win0_4.index t a * S2x512x196.size a + S2x512x196.size a := by
  show i ∈ ((View.whole main_v10).slice (win0_4.rect t)).set ↔ _
  rw [View.set_slice_whole, Rect.mem_set_unit]
  exact Iff.rfl

/-- After the run the output array is the dense crop: row r is covered by point r / 2. -/
theorem final (c : Dev nD) : (dats m 0 c).arrAt 4 cfg0.N
    = dense (m ((c : Thread nD τ).loc main_arg0)) (m ((c : Thread nD τ).loc main_arg1)) :=
  (dats m 0 c).arrAt_eq_of_cover 4 _ (fun t _ => flushed_eq m c t) fun i => by
    have hi0 : (i 0).val < 128 := (i 0).isLt
    have hi1 : (i 1).val < 512 := (i 1).isLt
    have hi2 : (i 2).val < 196 := (i 2).isLt
    obtain ⟨t, ht⟩ : ∃ t : Fin cfg0.N, t.val = (i 0).val / 2 :=
      ⟨⟨(i 0).val / 2, by show (i 0).val / 2 < grid0.N; rw [N_0]; omega⟩, rfl⟩
    obtain ⟨-, -, -, -, -, -, -, -, -, -, e0, e1, e2⟩ := idx_facts t
    refine ⟨t, flush0_4 t, ?_⟩
    rw [mem_blk]
    intro a
    match a with
    | ⟨0, _⟩ => show win0_4.index t (0 : Fin 3) * 2 ≤ (i 0).val ∧ (i 0).val < win0_4.index t (0 : Fin 3) * 2 + 2; omega
    | ⟨1, _⟩ => show win0_4.index t (1 : Fin 3) * 512 ≤ (i 1).val ∧ (i 1).val < win0_4.index t (1 : Fin 3) * 512 + 512; omega
    | ⟨2, _⟩ => show win0_4.index t (2 : Fin 3) * 196 ≤ (i 2).val ∧ (i 2).val < win0_4.index t (2 : Fin 3) * 196 + 196; omega

/-- The program's result: the closing reshape of the output array reads pixel gy·14 + gx at (gy, gx), which is the
    dense crop at (gy, gx). -/
theorem result_eq (c : Dev nD) :
    Pipeline.afterTail₀ cfgs (dats m) 0 (V0 m) [hostOps1] c main_v11
      = crop (m ((c : Thread nD τ).loc main_arg0)) (m ((c : Thread nD τ).loc main_arg1)) := by
  unfold Pipeline.afterTail₀
  show StableHlo.after hostOps1 _ (Proc.devRef .tc main_v11) = _
  after_results
  have hw := (Pipeline.withArrays_arr spec0 launch0.win.arr_inj c (V0 m c) (fun w => (dats m 0 c).arrAt w cfg0.N) 4).trans (final m c)
  funext i
  obtain ⟨r, ch, gy, gx, rfl⟩ : ∃ (r : Fin 128) (ch : Fin 512) (gy gx : Fin 14), i = ix4 r ch gy gx :=
    ⟨i 0, i 1, i 2, i 3, eq_ix4 (n0 := 128) (n1 := 512) (n2 := 14) (n3 := 14) i⟩
  show shapeCast S128x512x14x14 (Pipeline.withArrays spec0 c (V0 m c) (fun w => (dats m 0 c).arrAt w cfg0.N)
      (Proc.devRef .tc (Pipeline.arrRef spec0 4))) shapeCasts_S128x512x196_S128x512x14x14 (ix4 r ch gy gx) = _
  rw [hw]
  have hg : gy.val * 14 + gx.val < 196 := by have := gy.isLt; have := gx.isLt; omega
  refine (shapeCast_apply _ _ (ix4 r ch gy gx) (ix3 r ch (⟨gy.val * 14 + gx.val, hg⟩ : Fin 196)) ?_).trans ?_
  · rw [Shape.rowMajor_val_three, Shape.rowMajor_val_four]
    show (r.val * 512 + ch.val) * 196 + (gy.val * 14 + gx.val) = ((r.val * 512 + ch.val) * 14 + gy.val) * 14 + gx.val
    omega
  · have h1 : (⟨(gy.val * 14 + gx.val) / 14, by omega⟩ : Fin 14) = gy :=
      Fin.ext (by show (gy.val * 14 + gx.val) / 14 = gy.val; have := gx.isLt; omega)
    have h2 : (⟨(gy.val * 14 + gx.val) % 14, by omega⟩ : Fin 14) = gx :=
      Fin.ext (by show (gy.val * 14 + gx.val) % 14 = gx.val; have := gx.isLt; omega)
    show cropAt _ _ r ch (⟨(gy.val * 14 + gx.val) / 14, by omega⟩ : Fin 14) (⟨(gy.val * 14 + gx.val) % 14, by omega⟩ : Fin 14)
      = cropAt _ _ r ch gy gx
    rw [h1, h2]

/-- The kernel's run at the ideal instance: it terminates without a fault, its result is the dense crop of the two
    arguments, and the arguments end unchanged. -/
theorem run : θ_run defs (onTc (τ := τ) (main (F := Ideal))) ⟨m, fun _ => 0, ρ⟩ fun r => ∀ c : Dev nD,
      r.2.mem ((c : Thread nD τ).loc main_v11) = crop (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.CropValue

end
-- ==== Proof.PreDecode.lean ====
import proofs.«165540_j53214644798048_2_alg».proof.Pre_finite_inputs
import proofs.«165540_j53214644798048_2_alg».proof.Proof.Gen.Pre_finite_inputs
import Idealize.ShloMosaic.PureOps.Ideal
import Idealize.ShloMosaic.Lib.ReduceAll
import Idealize.ShloMosaic.Lib.ValueIdx
import Idealize.ShloMosaic.Lib.IdealHost

/-!
# The precondition, decoded

The precondition on the two inputs is the conjunction of four tests, each taken over all
elements of an array: `|a0| < +∞`, `|a1| < +∞`, `a1 ≥ -1` and `a1 ≤ 1`, read over the extended
reals, where the absolute value of `x` is `max x (-x)`. An extended real whose absolute value is
below `+∞` is neither `+∞` nor `-∞`, hence a real number; the two bounds then say that this real
number lies in `[-1, 1]`.
-/

noncomputable section

namespace Cert.PreDecode

open Idealize.ShloMosaic Idealize.ShloMosaic.ValueIdx
open Cert.Pre_finite_inputs

/-- the scalar shape has exactly one index -/
instance subsingleton_scalar_idx : Subsingleton S_.Idx := ⟨fun a b => funext fun d => d.elim0⟩

theorem ofBool_eq_one (b : Bool) : BitVec.ofBool b = 1#1 ↔ b = true := by cases b <;> decide

/-- the single-precision pattern `0x7F800000` denotes `+∞` -/
theorem inf_bits : Ideal.ofBits .f32 0x7F800000#32 = (⊤ : EReal) := by
  simp [Ideal.ofBits, Ideal.ieee]

/-- the single-precision pattern `0xBF800000` denotes `-1` -/
theorem neg_one_bits : Ideal.ofBits .f32 0xBF800000#32 = ((-1 : ℝ) : EReal) := by
  simp [Ideal.ofBits, Ideal.ieee, -EReal.coe_mul, -EReal.coe_neg]; norm_num

/-- the single-precision pattern `0x3F800000` denotes `1` -/
theorem one_bits : Ideal.ofBits .f32 0x3F800000#32 = ((1 : ℝ) : EReal) := by
  rw [Ideal.ofBits_one_f32]; rfl

/-- an extended real whose absolute value `max x (-x)` is below `+∞` is a real number -/
theorem finite_of_abs_lt (x : EReal) (h : Ideal.cmp .olt (max x (-x)) ⊤ = 1#1) :
    ∃ r : ℝ, x = (r : EReal) := by
  simp only [Ideal.cmp, ofBool_eq_one, decide_eq_true_eq] at h
  induction x using EReal.rec with
  | bot => simp at h
  | coe r => exact ⟨r, rfl⟩
  | top => simp at h

theorem ge_of_cmp (x c : EReal) (h : Ideal.cmp .oge x c = 1#1) : c ≤ x := by
  simpa only [Ideal.cmp, ofBool_eq_one, decide_eq_true_eq] using h

theorem le_of_cmp (x c : EReal) (h : Ideal.cmp .ole x c = 1#1) : x ≤ c := by
  simpa only [Ideal.cmp, ofBool_eq_one, decide_eq_true_eq] using h

/-- The precondition decoded: it is the conjunction of four "for all elements" tests,
`|a0| < +∞`, `|a1| < +∞`, `a1 ≥ -1` and `a1 ≤ 1`; when it holds every element of `a0` is a real
number and every element of `a1` is a real number in `[-1, 1]`. -/
theorem decode [Cert.Pre_finite_inputs.Facts] (a0 : Cert.Pre_finite_inputs.S128x512x37x37.Idx → EReal)
    (a1 : Cert.Pre_finite_inputs.S128x14x14x2.Idx → EReal)
    (h : Cert.Pre_finite_inputs.fn (F := Ideal) a0 a1 = fun _ => 1#1) :
    (∀ i, ∃ r : ℝ, a0 i = (r : EReal)) ∧ (∀ i, ∃ r : ℝ, a1 i = (r : EReal) ∧ -1 ≤ r ∧ r ≤ 1) := by
  have e := congrFun h ix0
  dsimp only [Cert.Pre_finite_inputs.fn, Cert.Pre_finite_inputs.fn_part1] at e
  simp only [andi, IntOp.andi_eq_one] at e
  obtain ⟨⟨⟨h1, h2⟩, h3⟩, h4⟩ := e
  have H1 : ∀ i, Ideal.cmp .olt (max (a0 i) (-(a0 i))) ⊤ = 1#1 := fun i => by
    have hi := Host.reduce_andi_all _ _ _ _ _ h1 i
    rw [cmpf_apply, broadcastInDim_scalar_apply, constant_apply, inf_bits] at hi
    exact hi
  have H2 : ∀ i, Ideal.cmp .olt (max (a1 i) (-(a1 i))) ⊤ = 1#1 := fun i => by
    have hi := Host.reduce_andi_all _ _ _ _ _ h2 i
    rw [cmpf_apply, broadcastInDim_scalar_apply, constant_apply, inf_bits] at hi
    exact hi
  have H3 : ∀ i, Ideal.cmp .oge (a1 i) ((-1 : ℝ) : EReal) = 1#1 := fun i => by
    have hi := Host.reduce_andi_all _ _ _ _ _ h3 i
    rw [cmpf_apply, broadcastInDim_scalar_apply, constant_apply, neg_one_bits] at hi
    exact hi
  have H4 : ∀ i, Ideal.cmp .ole (a1 i) ((1 : ℝ) : EReal) = 1#1 := fun i => by
    have hi := Host.reduce_andi_all _ _ _ _ _ h4 i
    rw [cmpf_apply, broadcastInDim_scalar_apply, constant_apply, one_bits] at hi
    exact hi
  refine ⟨fun i => finite_of_abs_lt _ (H1 i), fun i => ?_⟩
  obtain ⟨r, hr⟩ := finite_of_abs_lt _ (H2 i)
  have g3 := ge_of_cmp _ _ (H3 i)
  have g4 := le_of_cmp _ _ (H4 i)
  rw [hr] at g3 g4
  exact ⟨r, hr, EReal.coe_le_coe_iff.mp g3, EReal.coe_le_coe_iff.mp g4⟩

end Cert.PreDecode

end
-- ==== Proof.RefRead.lean ====
import proofs.«165540_j53214644798048_2_alg».proof.Proof.Gen.ReferenceIdeal.Read
import Idealize.ShloMosaic.Lib.ValueIdx
import Idealize.ShloMosaic.Lib.Pipeline.Value
import Idealize.ShloMosaic.PureOps.Ideal
import proofs.«165540_j53214644798048_2_alg».proof.Proof.CropDefs

/-!
# The bilinear crop read at one output element

The reference program samples, for each region `r` and output pixel `(gy, gx)`, a feature map
`feat[r, :, :, :]` of extent 37 × 37 at a real position `(Y, X)`: with `g = grid[r, gy, gx, ·]`,
`Y = ((g₀ + 1) · 36) · ½` and `X = ((g₁ + 1) · 36) · ½`. It takes the integer parts `⌊Y⌋`, `⌊X⌋`, the
fractional parts `wy = Y − ⌊Y⌋`, `wx = X − ⌊X⌋`, the two rows `⌊Y⌋`, `⌊Y⌋ + 1` and the two columns
`⌊X⌋`, `⌊X⌋ + 1` as 32-bit words clipped into `[0, 36]`, reads the four neighbours and blends them:

  `out[r, c, gy, gx] = ((v₀₀·(1 − wy))·(1 − wx) + (v₀₁·(1 − wy))·wx + (v₁₀·wy)·(1 − wx)) + (v₁₁·wy)·wx`.

This file reads the program's last value at one index `(r, c, gy, gx)` and states it in exactly that
form (`val_main_v147_at`), the association of the sums and products being the program's. A neighbour
`G a b` is the feature map at the row and column the gather computes from the words `a`, `b`: a negative
word is first shifted up by the extent (37, and 128 for the region word), then read as a signed integer
and clamped into the array. For words that already are `0 … 36` this is the element at that row and
column (`G_inrange`).
-/

noncomputable section

namespace Cert.ReferenceIdeal.RefValue

open Cert.ReferenceIdeal Cert.ReferenceIdeal.Gen Cert.ReferenceIdeal.Read
open Idealize.ShloMosaic Idealize.ShloMosaic.ValueIdx
open Cert.CropBridge (rpos clipw e1)

local notation "𝕀" => Idealize.ShloMosaic.Ideal

/-- The feature maps: one extended real per region, channel, row and column. -/
abbrev Feat : Type := (⟨S128x512x37x37, .f32⟩ : BufTy).Contents (Elt 𝕀)
/-- The sampling grid: per region and output pixel, the normalised row (channel 0) and column (channel 1). -/
abbrev Grid : Type := (⟨S128x14x14x2, .f32⟩ : BufTy).Contents (Elt 𝕀)

/-! ## The quantities of one output pixel -/

/-- The row position `Y = ((g₀ + 1) · 36) · ½`. -/
def posY (x1 : Grid) (r : Fin 128) (gy gx : Fin 14) : EReal := rpos (x1 (ix4 r gy gx (0 : Fin 2)))
/-- The column position `X = ((g₁ + 1) · 36) · ½`. -/
def posX (x1 : Grid) (r : Fin 128) (gy gx : Fin 14) : EReal := rpos (x1 (ix4 r gy gx (1 : Fin 2)))
/-- `⌊Y⌋`. -/
def flY (x1 : Grid) (r : Fin 128) (gy gx : Fin 14) : EReal := Idealize.ShloMosaic.Ideal.liftRound Int.floor (posY x1 r gy gx)
/-- `⌊X⌋`. -/
def flX (x1 : Grid) (r : Fin 128) (gy gx : Fin 14) : EReal := Idealize.ShloMosaic.Ideal.liftRound Int.floor (posX x1 r gy gx)
/-- The row weight `wy = Y − ⌊Y⌋`. -/
def wy (x1 : Grid) (r : Fin 128) (gy gx : Fin 14) : EReal := posY x1 r gy gx - flY x1 r gy gx
/-- The column weight `wx = X − ⌊X⌋`. -/
def wx (x1 : Grid) (r : Fin 128) (gy gx : Fin 14) : EReal := posX x1 r gy gx - flX x1 r gy gx

/-- The upper row `⌊Y⌋` as a clipped word. -/
def a0 (x1 : Grid) (r : Fin 128) (gy gx : Fin 14) : BitVec 32 := clipw (Idealize.ShloMosaic.Ideal.fptosi 32 (flY x1 r gy gx))
/-- The lower row `⌊Y⌋ + 1` as a clipped word. -/
def a1 (x1 : Grid) (r : Fin 128) (gy gx : Fin 14) : BitVec 32 := clipw (Idealize.ShloMosaic.Ideal.fptosi 32 (flY x1 r gy gx) + 1#32)
/-- The left column `⌊X⌋` as a clipped word. -/
def b0 (x1 : Grid) (r : Fin 128) (gy gx : Fin 14) : BitVec 32 := clipw (Idealize.ShloMosaic.Ideal.fptosi 32 (flX x1 r gy gx))
/-- The right column `⌊X⌋ + 1` as a clipped word. -/
def b1 (x1 : Grid) (r : Fin 128) (gy gx : Fin 14) : BitVec 32 := clipw (Idealize.ShloMosaic.Ideal.fptosi 32 (flX x1 r gy gx) + 1#32)

/-- A negative index word counts from the end: it is shifted up by the extent `n`; any other word is kept. -/
def normw (n a : BitVec 32) : BitVec 32 := Scalar.select (IntOp.cmpi .slt a 0#32) (a + n) a

/-- The neighbour the gather reads for row word `a` and column word `b`: each of the three index words (region,
    row, column) is normalised, read as a signed integer and clamped into its axis; the channel is `c`. -/
def G (x0 : Feat) (r : Fin 128) (c : Fin 512) (a b : BitVec 32) : EReal :=
  x0 (ix4 (⟨min (normw 128#32 (BitVec.ofNat 32 r.val)).toInt.toNat 127, by omega⟩ : Fin 128) c
    (⟨min (normw 37#32 a).toInt.toNat 36, by omega⟩ : Fin 37)
    (⟨min (normw 37#32 b).toInt.toNat 36, by omega⟩ : Fin 37))

/-! ## Index bookkeeping

Two indices are equal when their coordinates are; at literal ranks the coordinates are compared one by one. -/

local macro "idx3" : tactic =>
  `(tactic| (funext a; match a with | ⟨0, _⟩ => rfl | ⟨1, _⟩ => rfl | ⟨2, _⟩ => rfl))
local macro "idx4" : tactic =>
  `(tactic| (funext a; match a with | ⟨0, _⟩ => rfl | ⟨1, _⟩ => rfl | ⟨2, _⟩ => rfl | ⟨3, _⟩ => rfl))

/-! ## The positions, their floors and the weights -/

/-- The row position at pixel `(r, gy, gx)`: the grid's channel 0 there, plus one, times 36, times one half.
    (The flattening of the unit channel axis keeps the row-major position, hence the division by `14 · 14`.) -/
theorem v7_at (x1 : Grid) (r : Fin 128) (gy gx : Fin 14) :
    val_main_v7 (F := 𝕀) x1 (ix3 r gy gx) = posY x1 r gy gx := by
  have h : idx_main_v0 (idx_main_v1 (ix3 r gy gx)) = ix4 r gy gx (0 : Fin 2) := by
    have hr := r.isLt; have hy := gy.isLt; have hx := gx.isLt
    funext a; refine Fin.ext ?_
    match a with
    | ⟨0, _⟩ => show ((r.val * 14 + gy.val) * 14 + gx.val) / 196 = r.val; omega
    | ⟨1, _⟩ => show ((r.val * 14 + gy.val) * 14 + gx.val) / 14 % 14 = gy.val; omega
    | ⟨2, _⟩ => show ((r.val * 14 + gy.val) * 14 + gx.val) / 1 % 14 = gx.val; omega
    | ⟨3, _⟩ => rfl
  rewrite [val_main_v7_apply, val_main_v5_apply, val_main_v3_apply, val_main_v1_apply, val_main_v0_apply, h,
    val_main_v2_apply, val_main_cst_apply, val_main_v4_apply, val_main_cst_0_apply, val_main_v6_apply, val_main_cst_1_apply]
  rfl

/-- The column position at pixel `(r, gy, gx)`: the grid's channel 1 there, plus one, times 36, times one half.
    (The flattening of the unit channel axis keeps the row-major position, hence the division by `14 · 14`.) -/
theorem v15_at (x1 : Grid) (r : Fin 128) (gy gx : Fin 14) :
    val_main_v15 (F := 𝕀) x1 (ix3 r gy gx) = posX x1 r gy gx := by
  have h : idx_main_v8 (idx_main_v9 (ix3 r gy gx)) = ix4 r gy gx (1 : Fin 2) := by
    have hr := r.isLt; have hy := gy.isLt; have hx := gx.isLt
    funext a; refine Fin.ext ?_
    match a with
    | ⟨0, _⟩ => show ((r.val * 14 + gy.val) * 14 + gx.val) / 196 = r.val; omega
    | ⟨1, _⟩ => show ((r.val * 14 + gy.val) * 14 + gx.val) / 14 % 14 = gy.val; omega
    | ⟨2, _⟩ => show ((r.val * 14 + gy.val) * 14 + gx.val) / 1 % 14 = gx.val; omega
    | ⟨3, _⟩ => rfl
  rewrite [val_main_v15_apply, val_main_v13_apply, val_main_v11_apply, val_main_v9_apply, val_main_v8_apply, h,
    val_main_v10_apply, val_main_cst_2_apply, val_main_v12_apply, val_main_cst_3_apply, val_main_v14_apply, val_main_cst_4_apply]
  rfl

/-- The floor of the row position. -/
theorem v16_at (x1 : Grid) (r : Fin 128) (gy gx : Fin 14) : val_main_v16 (F := 𝕀) x1 (ix3 r gy gx) = flY x1 r gy gx := by
  rewrite [val_main_v16_apply, v7_at]; rfl
/-- The floor of the column position. -/
theorem v17_at (x1 : Grid) (r : Fin 128) (gy gx : Fin 14) : val_main_v17 (F := 𝕀) x1 (ix3 r gy gx) = flX x1 r gy gx := by
  rewrite [val_main_v17_apply, v15_at]; rfl
/-- The row weight: the position less its floor. -/
theorem v18_at (x1 : Grid) (r : Fin 128) (gy gx : Fin 14) : val_main_v18 (F := 𝕀) x1 (ix3 r gy gx) = wy x1 r gy gx := by
  rewrite [val_main_v18_apply, v7_at, v16_at]; rfl
/-- The column weight. -/
theorem v19_at (x1 : Grid) (r : Fin 128) (gy gx : Fin 14) : val_main_v19 (F := 𝕀) x1 (ix3 r gy gx) = wx x1 r gy gx := by
  rewrite [val_main_v19_apply, v15_at, v17_at]; rfl

/-! ## The four clipped words -/

/-- The upper row word: the floor of `Y` converted to an integer, clipped into `[0, 36]`. -/
theorem v21_at (x1 : Grid) (r : Fin 128) (gy gx : Fin 14) : val_main_v21 (F := 𝕀) x1 (ix3 r gy gx) = a0 x1 r gy gx := by
  rewrite [val_main_v21_apply, val_main_call0_v4_apply, val_main_call0_v3_apply, val_main_c_5_apply, val_main_call0_v2_apply, val_main_call0_v1_apply,
    val_main_call0_v0_apply, val_main_c_apply, val_main_v20_apply, v16_at]
  rfl

/-- The lower row word: that integer plus one, clipped. -/
theorem v25_at (x1 : Grid) (r : Fin 128) (gy gx : Fin 14) : val_main_v25 (F := 𝕀) x1 (ix3 r gy gx) = a1 x1 r gy gx := by
  rewrite [val_main_v25_apply, val_main_call1_v4_apply, val_main_call1_v3_apply, val_main_c_8_apply, val_main_call1_v2_apply, val_main_call1_v1_apply,
    val_main_call1_v0_apply, val_main_c_7_apply, val_main_v24_apply, val_main_v22_apply, v16_at, val_main_v23_apply, val_main_c_6_apply]
  rfl

/-- The left column word. -/
theorem v27_at (x1 : Grid) (r : Fin 128) (gy gx : Fin 14) : val_main_v27 (F := 𝕀) x1 (ix3 r gy gx) = b0 x1 r gy gx := by
  rewrite [val_main_v27_apply, val_main_call2_v4_apply, val_main_call2_v3_apply, val_main_c_10_apply, val_main_call2_v2_apply, val_main_call2_v1_apply,
    val_main_call2_v0_apply, val_main_c_9_apply, val_main_v26_apply, v17_at]
  rfl

/-- The right column word. -/
theorem v31_at (x1 : Grid) (r : Fin 128) (gy gx : Fin 14) : val_main_v31 (F := 𝕀) x1 (ix3 r gy gx) = b1 x1 r gy gx := by
  rewrite [val_main_v31_apply, val_main_call3_v4_apply, val_main_call3_v3_apply, val_main_c_13_apply, val_main_call3_v2_apply, val_main_call3_v1_apply,
    val_main_call3_v0_apply, val_main_c_12_apply, val_main_v30_apply, val_main_v28_apply, v17_at, val_main_v29_apply, val_main_c_11_apply]
  rfl

/-! ## The index words the gathers read

Before each gather the program normalises its three index words (a negative one is shifted up by the axis extent). -/

theorem v43_at (x1 : Grid) (r : Fin 128) (gy gx : Fin 14) : val_main_v43 (F := 𝕀) x1 (ix3 r gy gx) = normw 37#32 (a0 x1 r gy gx) := by
  rewrite [val_main_v43_apply, val_main_v40_apply, val_main_v42_apply, v21_at, val_main_v39_apply, val_main_c_16_apply, val_main_v41_apply, val_main_c_17_apply]
  rfl

theorem v48_at (x1 : Grid) (r : Fin 128) (gy gx : Fin 14) : val_main_v48 (F := 𝕀) x1 (ix3 r gy gx) = normw 37#32 (b0 x1 r gy gx) := by
  rewrite [val_main_v48_apply, val_main_v45_apply, val_main_v47_apply, v27_at, val_main_v44_apply, val_main_c_18_apply, val_main_v46_apply, val_main_c_19_apply]
  rfl

theorem v64_at (x1 : Grid) (r : Fin 128) (gy gx : Fin 14) : val_main_v64 (F := 𝕀) x1 (ix3 r gy gx) = normw 37#32 (a0 x1 r gy gx) := by
  rewrite [val_main_v64_apply, val_main_v61_apply, val_main_v63_apply, v21_at, val_main_v60_apply, val_main_c_22_apply, val_main_v62_apply, val_main_c_23_apply]
  rfl

theorem v69_at (x1 : Grid) (r : Fin 128) (gy gx : Fin 14) : val_main_v69 (F := 𝕀) x1 (ix3 r gy gx) = normw 37#32 (b1 x1 r gy gx) := by
  rewrite [val_main_v69_apply, val_main_v66_apply, val_main_v68_apply, v31_at, val_main_v65_apply, val_main_c_24_apply, val_main_v67_apply, val_main_c_25_apply]
  rfl

theorem v85_at (x1 : Grid) (r : Fin 128) (gy gx : Fin 14) : val_main_v85 (F := 𝕀) x1 (ix3 r gy gx) = normw 37#32 (a1 x1 r gy gx) := by
  rewrite [val_main_v85_apply, val_main_v82_apply, val_main_v84_apply, v25_at, val_main_v81_apply, val_main_c_28_apply, val_main_v83_apply, val_main_c_29_apply]
  rfl

theorem v90_at (x1 : Grid) (r : Fin 128) (gy gx : Fin 14) : val_main_v90 (F := 𝕀) x1 (ix3 r gy gx) = normw 37#32 (b0 x1 r gy gx) := by
  rewrite [val_main_v90_apply, val_main_v87_apply, val_main_v89_apply, v27_at, val_main_v86_apply, val_main_c_30_apply, val_main_v88_apply, val_main_c_31_apply]
  rfl

theorem v106_at (x1 : Grid) (r : Fin 128) (gy gx : Fin 14) : val_main_v106 (F := 𝕀) x1 (ix3 r gy gx) = normw 37#32 (a1 x1 r gy gx) := by
  rewrite [val_main_v106_apply, val_main_v103_apply, val_main_v105_apply, v25_at, val_main_v102_apply, val_main_c_34_apply, val_main_v104_apply, val_main_c_35_apply]
  rfl

theorem v111_at (x1 : Grid) (r : Fin 128) (gy gx : Fin 14) : val_main_v111 (F := 𝕀) x1 (ix3 r gy gx) = normw 37#32 (b1 x1 r gy gx) := by
  rewrite [val_main_v111_apply, val_main_v108_apply, val_main_v110_apply, v31_at, val_main_v107_apply, val_main_c_36_apply, val_main_v109_apply, val_main_c_37_apply]
  rfl

theorem v38_at (i : S128x1x1.Idx) :
    val_main_v38 (F := 𝕀) i = normw 128#32 (BitVec.ofNat 32 (i 0).val) := by
  rewrite [val_main_v38_apply, val_main_v35_apply, val_main_v37_apply, val_main_v33_apply, val_main_v32_apply, val_main_v34_apply, val_main_c_14_apply, val_main_v36_apply, val_main_c_15_apply]
  rfl

theorem v59_at (i : S128x1x1.Idx) :
    val_main_v59 (F := 𝕀) i = normw 128#32 (BitVec.ofNat 32 (i 0).val) := by
  rewrite [val_main_v59_apply, val_main_v56_apply, val_main_v58_apply, val_main_v33_apply, val_main_v32_apply, val_main_v55_apply, val_main_c_20_apply, val_main_v57_apply, val_main_c_21_apply]
  rfl

theorem v80_at (i : S128x1x1.Idx) :
    val_main_v80 (F := 𝕀) i = normw 128#32 (BitVec.ofNat 32 (i 0).val) := by
  rewrite [val_main_v80_apply, val_main_v77_apply, val_main_v79_apply, val_main_v33_apply, val_main_v32_apply, val_main_v76_apply, val_main_c_26_apply, val_main_v78_apply, val_main_c_27_apply]
  rfl

theorem v101_at (i : S128x1x1.Idx) :
    val_main_v101 (F := 𝕀) i = normw 128#32 (BitVec.ofNat 32 (i 0).val) := by
  rewrite [val_main_v101_apply, val_main_v98_apply, val_main_v100_apply, val_main_v33_apply, val_main_v32_apply, val_main_v97_apply, val_main_c_32_apply, val_main_v99_apply, val_main_c_33_apply]
  rfl

/-! ## A concatenation of three unit pieces along the last axis

Coordinate `k` of the last axis of the joined array reads piece `k` (each piece has extent 1 there). -/

theorem concat3_at0 {α : Type} (p0 p1 p2 : S128x14x14x1.Idx → α)
    (h : Shape.Concatenates [S128x14x14x1, S128x14x14x1, S128x14x14x1] S128x14x14x3 3)
    (r : Fin 128) (gy gx : Fin 14) :
    concatenate S128x14x14x3 3 [⟨S128x14x14x1, p0⟩, ⟨S128x14x14x1, p1⟩, ⟨S128x14x14x1, p2⟩] h
        (ix4 r gy gx (0 : Fin 3)) = p0 (ix4 r gy gx (0 : Fin 1)) :=
  concatenate_apply_piece (t := S128x14x14x3) (3 : Fin 4)
    [⟨S128x14x14x1, p0⟩, ⟨S128x14x14x1, p1⟩, ⟨S128x14x14x1, p2⟩] h (ix4 r gy gx (0 : Fin 3))
    0 (by show 0 < 3; omega) S128x14x14x1 p0 rfl rfl 0 rfl
    (ix4 r gy gx (0 : Fin 1))
    (fun b hb => by
      match b, hb with
      | ⟨0, _⟩, _ => rfl
      | ⟨1, _⟩, _ => rfl
      | ⟨2, _⟩, _ => rfl
      | ⟨3, _⟩, hb => exact absurd rfl hb)
    rfl

theorem concat3_at1 {α : Type} (p0 p1 p2 : S128x14x14x1.Idx → α)
    (h : Shape.Concatenates [S128x14x14x1, S128x14x14x1, S128x14x14x1] S128x14x14x3 3)
    (r : Fin 128) (gy gx : Fin 14) :
    concatenate S128x14x14x3 3 [⟨S128x14x14x1, p0⟩, ⟨S128x14x14x1, p1⟩, ⟨S128x14x14x1, p2⟩] h
        (ix4 r gy gx (1 : Fin 3)) = p1 (ix4 r gy gx (0 : Fin 1)) :=
  concatenate_apply_piece (t := S128x14x14x3) (3 : Fin 4)
    [⟨S128x14x14x1, p0⟩, ⟨S128x14x14x1, p1⟩, ⟨S128x14x14x1, p2⟩] h (ix4 r gy gx (1 : Fin 3))
    1 (by show 1 < 3; omega) S128x14x14x1 p1 rfl rfl 1 rfl
    (ix4 r gy gx (0 : Fin 1))
    (fun b hb => by
      match b, hb with
      | ⟨0, _⟩, _ => rfl
      | ⟨1, _⟩, _ => rfl
      | ⟨2, _⟩, _ => rfl
      | ⟨3, _⟩, hb => exact absurd rfl hb)
    rfl

theorem concat3_at2 {α : Type} (p0 p1 p2 : S128x14x14x1.Idx → α)
    (h : Shape.Concatenates [S128x14x14x1, S128x14x14x1, S128x14x14x1] S128x14x14x3 3)
    (r : Fin 128) (gy gx : Fin 14) :
    concatenate S128x14x14x3 3 [⟨S128x14x14x1, p0⟩, ⟨S128x14x14x1, p1⟩, ⟨S128x14x14x1, p2⟩] h
        (ix4 r gy gx (2 : Fin 3)) = p2 (ix4 r gy gx (0 : Fin 1)) :=
  concatenate_apply_piece (t := S128x14x14x3) (3 : Fin 4)
    [⟨S128x14x14x1, p0⟩, ⟨S128x14x14x1, p1⟩, ⟨S128x14x14x1, p2⟩] h (ix4 r gy gx (2 : Fin 3))
    2 (by show 2 < 3; omega) S128x14x14x1 p2 rfl rfl 2 rfl
    (ix4 r gy gx (0 : Fin 1))
    (fun b hb => by
      match b, hb with
      | ⟨0, _⟩, _ => rfl
      | ⟨1, _⟩, _ => rfl
      | ⟨2, _⟩, _ => rfl
      | ⟨3, _⟩, hb => exact absurd rfl hb)
    rfl

/-! ## The index vectors: (region word, row word, column word) at each pixel -/

theorem v53_at0 (x1 : Grid) (r : Fin 128) (gy gx : Fin 14) :
    val_main_v53 (F := 𝕀) x1 (ix4 r gy gx (0 : Fin 3)) = normw 128#32 (BitVec.ofNat 32 r.val) := by
  unfold val_main_v53
  rewrite [concat3_at0, val_main_v50_apply, val_main_v49_apply, v38_at]
  rfl
theorem v53_at1 (x1 : Grid) (r : Fin 128) (gy gx : Fin 14) :
    val_main_v53 (F := 𝕀) x1 (ix4 r gy gx (1 : Fin 3)) = normw 37#32 (a0 x1 r gy gx) := by
  unfold val_main_v53
  rw [concat3_at1, val_main_v51_apply,
    show idx_main_v51 (ix4 r gy gx (0 : Fin 1)) = ix3 r gy gx from by idx3, v43_at]
theorem v53_at2 (x1 : Grid) (r : Fin 128) (gy gx : Fin 14) :
    val_main_v53 (F := 𝕀) x1 (ix4 r gy gx (2 : Fin 3)) = normw 37#32 (b0 x1 r gy gx) := by
  unfold val_main_v53
  rw [concat3_at2, val_main_v52_apply,
    show idx_main_v52 (ix4 r gy gx (0 : Fin 1)) = ix3 r gy gx from by idx3, v48_at]

theorem v74_at0 (x1 : Grid) (r : Fin 128) (gy gx : Fin 14) :
    val_main_v74 (F := 𝕀) x1 (ix4 r gy gx (0 : Fin 3)) = normw 128#32 (BitVec.ofNat 32 r.val) := by
  unfold val_main_v74
  rewrite [concat3_at0, val_main_v71_apply, val_main_v70_apply, v59_at]
  rfl
theorem v74_at1 (x1 : Grid) (r : Fin 128) (gy gx : Fin 14) :
    val_main_v74 (F := 𝕀) x1 (ix4 r gy gx (1 : Fin 3)) = normw 37#32 (a0 x1 r gy gx) := by
  unfold val_main_v74
  rw [concat3_at1, val_main_v72_apply,
    show idx_main_v72 (ix4 r gy gx (0 : Fin 1)) = ix3 r gy gx from by idx3, v64_at]
theorem v74_at2 (x1 : Grid) (r : Fin 128) (gy gx : Fin 14) :
    val_main_v74 (F := 𝕀) x1 (ix4 r gy gx (2 : Fin 3)) = normw 37#32 (b1 x1 r gy gx) := by
  unfold val_main_v74
  rw [concat3_at2, val_main_v73_apply,
    show idx_main_v73 (ix4 r gy gx (0 : Fin 1)) = ix3 r gy gx from by idx3, v69_at]

theorem v95_at0 (x1 : Grid) (r : Fin 128) (gy gx : Fin 14) :
    val_main_v95 (F := 𝕀) x1 (ix4 r gy gx (0 : Fin 3)) = normw 128#32 (BitVec.ofNat 32 r.val) := by
  unfold val_main_v95
  rewrite [concat3_at0, val_main_v92_apply, val_main_v91_apply, v80_at]
  rfl
theorem v95_at1 (x1 : Grid) (r : Fin 128) (gy gx : Fin 14) :
    val_main_v95 (F := 𝕀) x1 (ix4 r gy gx (1 : Fin 3)) = normw 37#32 (a1 x1 r gy gx) := by
  unfold val_main_v95
  rw [concat3_at1, val_main_v93_apply,
    show idx_main_v93 (ix4 r gy gx (0 : Fin 1)) = ix3 r gy gx from by idx3, v85_at]
theorem v95_at2 (x1 : Grid) (r : Fin 128) (gy gx : Fin 14) :
    val_main_v95 (F := 𝕀) x1 (ix4 r gy gx (2 : Fin 3)) = normw 37#32 (b0 x1 r gy gx) := by
  unfold val_main_v95
  rw [concat3_at2, val_main_v94_apply,
    show idx_main_v94 (ix4 r gy gx (0 : Fin 1)) = ix3 r gy gx from by idx3, v90_at]

theorem v116_at0 (x1 : Grid) (r : Fin 128) (gy gx : Fin 14) :
    val_main_v116 (F := 𝕀) x1 (ix4 r gy gx (0 : Fin 3)) = normw 128#32 (BitVec.ofNat 32 r.val) := by
  unfold val_main_v116
  rewrite [concat3_at0, val_main_v113_apply, val_main_v112_apply, v101_at]
  rfl
theorem v116_at1 (x1 : Grid) (r : Fin 128) (gy gx : Fin 14) :
    val_main_v116 (F := 𝕀) x1 (ix4 r gy gx (1 : Fin 3)) = normw 37#32 (a1 x1 r gy gx) := by
  unfold val_main_v116
  rw [concat3_at1, val_main_v114_apply,
    show idx_main_v114 (ix4 r gy gx (0 : Fin 1)) = ix3 r gy gx from by idx3, v106_at]
theorem v116_at2 (x1 : Grid) (r : Fin 128) (gy gx : Fin 14) :
    val_main_v116 (F := 𝕀) x1 (ix4 r gy gx (2 : Fin 3)) = normw 37#32 (b1 x1 r gy gx) := by
  unfold val_main_v116
  rw [concat3_at2, val_main_v115_apply,
    show idx_main_v115 (ix4 r gy gx (0 : Fin 1)) = ix3 r gy gx from by idx3, v111_at]

/-! ## The gather read at an index

The operand has axes (region, channel, row, column); the index vector names a region, a row and a column, and the
result's last axis runs over the channels. Each named coordinate is the index word read as a signed integer and
clamped into its axis; the channel coordinate is the result's. -/

/-- The gather's dimension numbers. -/
abbrev gd : GatherDims S128x512x37x37 S128x14x14x3 S128x14x14x512 :=
  gather_S128x512x37x37_S128x14x14x3_S128x14x14x512_3_023_n_n_023_3_151211

/-- Component `k` of the index vector of result index `(r, gy, gx, c)` sits at `(r, gy, gx, k)`. -/
theorem siIdx_at (r : Fin 128) (c : Fin 512) (gy gx : Fin 14) (k : Fin gd.startIndexMap.length) :
    gd.siIdx (ix4 r gy gx c) k = ix4 r gy gx (⟨k.val, k.isLt⟩ : Fin 3) := by
  funext b
  refine Fin.ext ?_
  match b with
  | ⟨0, _⟩ => rfl
  | ⟨1, _⟩ => rfl
  | ⟨2, _⟩ => rfl
  | ⟨3, _⟩ => rfl

theorem gather_at {α : Type} (x : S128x512x37x37.Idx → α) (idx : IVec S128x14x14x3 32)
    (r : Fin 128) (c : Fin 512) (gy gx : Fin 14) :
    Host.gather gd x idx (ix4 r gy gx c)
      = x (ix4 (⟨min (idx (ix4 r gy gx (0 : Fin 3))).toInt.toNat 127, by omega⟩ : Fin 128) c
          (⟨min (idx (ix4 r gy gx (1 : Fin 3))).toInt.toNat 36, by omega⟩ : Fin 37)
          (⟨min (idx (ix4 r gy gx (2 : Fin 3))).toInt.toNat 36, by omega⟩ : Fin 37)) := by
  show x (gd.operandIdx (ix4 r gy gx c) idx) = x _
  congr 1
  funext a
  refine Fin.ext ?_
  match a with
  | ⟨0, _⟩ =>
    show min (idx (gd.siIdx (ix4 r gy gx c) ⟨0, by decide⟩)).toInt.toNat 127 + 0 + 0 = _
    rewrite [siIdx_at]; rfl
  | ⟨1, _⟩ =>
    show 0 + 0 + c.val = c.val
    omega
  | ⟨2, _⟩ =>
    show min (idx (gd.siIdx (ix4 r gy gx c) ⟨1, by decide⟩)).toInt.toNat 36 + 0 + 0 = _
    rewrite [siIdx_at]; rfl
  | ⟨3, _⟩ =>
    show min (idx (gd.siIdx (ix4 r gy gx c) ⟨2, by decide⟩)).toInt.toNat 36 + 0 + 0 = _
    rewrite [siIdx_at]; rfl

/-- The same with the three index words named. -/
theorem gather_words {α : Type} (x : S128x512x37x37.Idx → α) (idx : IVec S128x14x14x3 32)
    (r : Fin 128) (c : Fin 512) (gy gx : Fin 14) (w0 w1 w2 : BitVec 32)
    (h0 : idx (ix4 r gy gx (0 : Fin 3)) = w0) (h1 : idx (ix4 r gy gx (1 : Fin 3)) = w1)
    (h2 : idx (ix4 r gy gx (2 : Fin 3)) = w2) :
    Host.gather gd x idx (ix4 r gy gx c)
      = x (ix4 (⟨min w0.toInt.toNat 127, by omega⟩ : Fin 128) c
          (⟨min w1.toInt.toNat 36, by omega⟩ : Fin 37) (⟨min w2.toInt.toNat 36, by omega⟩ : Fin 37)) := by
  subst h0 h1 h2
  exact gather_at x idx r c gy gx

/-! ## The four neighbours -/

theorem v54_at (x0 : Feat) (x1 : Grid) (r : Fin 128) (c : Fin 512) (gy gx : Fin 14) :
    val_main_v54 (F := 𝕀) x0 x1 (ix4 r gy gx c) = G x0 r c (a0 x1 r gy gx) (b0 x1 r gy gx) := by
  unfold val_main_v54 G
  exact gather_words x0 (val_main_v53 (F := 𝕀) x1) r c gy gx _ _ _
    (v53_at0 x1 r gy gx) (v53_at1 x1 r gy gx) (v53_at2 x1 r gy gx)

theorem v75_at (x0 : Feat) (x1 : Grid) (r : Fin 128) (c : Fin 512) (gy gx : Fin 14) :
    val_main_v75 (F := 𝕀) x0 x1 (ix4 r gy gx c) = G x0 r c (a0 x1 r gy gx) (b1 x1 r gy gx) := by
  unfold val_main_v75 G
  exact gather_words x0 (val_main_v74 (F := 𝕀) x1) r c gy gx _ _ _
    (v74_at0 x1 r gy gx) (v74_at1 x1 r gy gx) (v74_at2 x1 r gy gx)

theorem v96_at (x0 : Feat) (x1 : Grid) (r : Fin 128) (c : Fin 512) (gy gx : Fin 14) :
    val_main_v96 (F := 𝕀) x0 x1 (ix4 r gy gx c) = G x0 r c (a1 x1 r gy gx) (b0 x1 r gy gx) := by
  unfold val_main_v96 G
  exact gather_words x0 (val_main_v95 (F := 𝕀) x1) r c gy gx _ _ _
    (v95_at0 x1 r gy gx) (v95_at1 x1 r gy gx) (v95_at2 x1 r gy gx)

theorem v117_at (x0 : Feat) (x1 : Grid) (r : Fin 128) (c : Fin 512) (gy gx : Fin 14) :
    val_main_v117 (F := 𝕀) x0 x1 (ix4 r gy gx c) = G x0 r c (a1 x1 r gy gx) (b1 x1 r gy gx) := by
  unfold val_main_v117 G
  exact gather_words x0 (val_main_v116 (F := 𝕀) x1) r c gy gx _ _ _
    (v116_at0 x1 r gy gx) (v116_at1 x1 r gy gx) (v116_at2 x1 r gy gx)

/-! ## The weights, spread over the channels -/

theorem v122_at (x1 : Grid) (r : Fin 128) (c : Fin 512) (gy gx : Fin 14) :
    val_main_v122 (F := 𝕀) x1 (ix4 r gy gx c) = e1 - wy x1 r gy gx := by
  rewrite [val_main_v122_apply, val_main_v121_apply, val_main_v120_apply, val_main_cst_38_apply, val_main_v118_apply,
    show idx_main_v118 (idx_main_v122 (ix4 r gy gx c)) = ix3 r gy gx from by idx3, v18_at]
  rfl

theorem v126_at (x1 : Grid) (r : Fin 128) (c : Fin 512) (gy gx : Fin 14) :
    val_main_v126 (F := 𝕀) x1 (ix4 r gy gx c) = e1 - wx x1 r gy gx := by
  rewrite [val_main_v126_apply, val_main_v125_apply, val_main_v124_apply, val_main_cst_39_apply, val_main_v119_apply,
    show idx_main_v119 (idx_main_v126 (ix4 r gy gx c)) = ix3 r gy gx from by idx3, v19_at]
  rfl

theorem v130_at (x1 : Grid) (r : Fin 128) (c : Fin 512) (gy gx : Fin 14) :
    val_main_v130 (F := 𝕀) x1 (ix4 r gy gx c) = e1 - wy x1 r gy gx := by
  rewrite [val_main_v130_apply, val_main_v129_apply, val_main_v128_apply, val_main_cst_40_apply, val_main_v118_apply,
    show idx_main_v118 (idx_main_v130 (ix4 r gy gx c)) = ix3 r gy gx from by idx3, v18_at]
  rfl

theorem v132_at (x1 : Grid) (r : Fin 128) (c : Fin 512) (gy gx : Fin 14) :
    val_main_v132 (F := 𝕀) x1 (ix4 r gy gx c) = wx x1 r gy gx := by
  rw [val_main_v132_apply, val_main_v119_apply,
    show idx_main_v119 (idx_main_v132 (ix4 r gy gx c)) = ix3 r gy gx from by idx3, v19_at]

theorem v135_at (x1 : Grid) (r : Fin 128) (c : Fin 512) (gy gx : Fin 14) :
    val_main_v135 (F := 𝕀) x1 (ix4 r gy gx c) = wy x1 r gy gx := by
  rw [val_main_v135_apply, val_main_v118_apply,
    show idx_main_v118 (idx_main_v135 (ix4 r gy gx c)) = ix3 r gy gx from by idx3, v18_at]

theorem v139_at (x1 : Grid) (r : Fin 128) (c : Fin 512) (gy gx : Fin 14) :
    val_main_v139 (F := 𝕀) x1 (ix4 r gy gx c) = e1 - wx x1 r gy gx := by
  rewrite [val_main_v139_apply, val_main_v138_apply, val_main_v137_apply, val_main_cst_41_apply, val_main_v119_apply,
    show idx_main_v119 (idx_main_v139 (ix4 r gy gx c)) = ix3 r gy gx from by idx3, v19_at]
  rfl

theorem v142_at (x1 : Grid) (r : Fin 128) (c : Fin 512) (gy gx : Fin 14) :
    val_main_v142 (F := 𝕀) x1 (ix4 r gy gx c) = wy x1 r gy gx := by
  rw [val_main_v142_apply, val_main_v118_apply,
    show idx_main_v118 (idx_main_v142 (ix4 r gy gx c)) = ix3 r gy gx from by idx3, v18_at]

theorem v144_at (x1 : Grid) (r : Fin 128) (c : Fin 512) (gy gx : Fin 14) :
    val_main_v144 (F := 𝕀) x1 (ix4 r gy gx c) = wx x1 r gy gx := by
  rw [val_main_v144_apply, val_main_v119_apply,
    show idx_main_v119 (idx_main_v144 (ix4 r gy gx c)) = ix3 r gy gx from by idx3, v19_at]

/-! ## The result -/

/-- **The reference at one output element**: the four neighbours blended by the row and column weights, in the
    program's own association of the products and sums. -/
theorem val_main_v147_at (x0 : Feat) (x1 : Grid) (r : Fin 128) (c : Fin 512) (gy gx : Fin 14) :
    val_main_v147 (F := 𝕀) x0 x1 (ix4 r c gy gx)
      = ((G x0 r c (a0 x1 r gy gx) (b0 x1 r gy gx) * (e1 - wy x1 r gy gx)) * (e1 - wx x1 r gy gx)
          + (G x0 r c (a0 x1 r gy gx) (b1 x1 r gy gx) * (e1 - wy x1 r gy gx)) * wx x1 r gy gx
          + (G x0 r c (a1 x1 r gy gx) (b0 x1 r gy gx) * wy x1 r gy gx) * (e1 - wx x1 r gy gx))
        + (G x0 r c (a1 x1 r gy gx) (b1 x1 r gy gx) * wy x1 r gy gx) * wx x1 r gy gx := by
  rewrite [val_main_v147_apply, show idx_main_v147 (ix4 r c gy gx) = ix4 r gy gx c from by idx4,
    val_main_v146_apply, val_main_v141_apply, val_main_v134_apply, val_main_v127_apply, val_main_v123_apply, val_main_v133_apply, val_main_v131_apply,
    val_main_v140_apply, val_main_v136_apply, val_main_v145_apply, val_main_v143_apply,
    v54_at, v75_at, v96_at, v117_at, v122_at, v126_at, v130_at, v132_at, v135_at, v139_at, v142_at, v144_at]
  rfl

/-! ## Words that already are row or column numbers

A word `n < 2³¹` is not negative as a signed integer, so it is kept by the normalisation and reads as `n`. -/

theorem toInt_ofNat_lt (n : Nat) (hn : n < 2147483648) : (BitVec.ofNat 32 n).toInt = (n : Int) := by
  have hp : (2 : Nat) ^ 32 = 4294967296 := by norm_num
  have h1 : (BitVec.ofNat 32 n).toNat = n := by
    rw [BitVec.toNat_ofNat]; exact Nat.mod_eq_of_lt (by omega)
  rw [BitVec.toInt_eq_toNat_of_lt (x := BitVec.ofNat 32 n) (by rw [h1]; omega), h1]

theorem normw_ofNat (m : BitVec 32) (n : Nat) (hn : n < 2147483648) :
    normw m (BitVec.ofNat 32 n) = BitVec.ofNat 32 n := by
  have hs : (BitVec.ofNat 32 n).slt 0#32 = false := by
    rw [BitVec.slt_eq_decide, toInt_ofNat_lt n hn, BitVec.toInt_zero]
    exact decide_eq_false (by omega)
  show Scalar.select (BitVec.ofBool ((BitVec.ofNat 32 n).slt 0#32)) (BitVec.ofNat 32 n + m) (BitVec.ofNat 32 n)
    = BitVec.ofNat 32 n
  rw [hs]
  exact select_zero _ _

/-- The clamped reading of an in-range word is the number itself. -/
theorem clamp_ofNat (m : BitVec 32) (n k : Nat) (hn : n ≤ k) (hk : k < 2147483648) :
    min (normw m (BitVec.ofNat 32 n)).toInt.toNat k = n := by
  rw [normw_ofNat m n (by omega), toInt_ofNat_lt n (by omega), Int.toNat_natCast]
  exact Nat.min_eq_left hn

/-- **In-range words gather the expected element**: for a row `i` and a column `j` below 37 the neighbour is
    the feature map at `(r, c, i, j)`. -/
theorem G_inrange (x0 : Feat) (r : Fin 128) (c : Fin 512) (i j : Nat) (hi : i < 37) (hj : j < 37) :
    G x0 r c (BitVec.ofNat 32 i) (BitVec.ofNat 32 j) = x0 (ix4 r c (⟨i, hi⟩ : Fin 37) (⟨j, hj⟩ : Fin 37)) := by
  have hr := r.isLt
  unfold G
  congr 1
  funext a
  refine Fin.ext ?_
  match a with
  | ⟨0, _⟩ =>
    show min (normw 128#32 (BitVec.ofNat 32 r.val)).toInt.toNat 127 = r.val
    exact clamp_ofNat _ _ _ (by omega) (by omega)
  | ⟨1, _⟩ => rfl
  | ⟨2, _⟩ =>
    show min (normw 37#32 (BitVec.ofNat 32 i)).toInt.toNat 36 = i
    exact clamp_ofNat _ _ _ (by omega) (by omega)
  | ⟨3, _⟩ =>
    show min (normw 37#32 (BitVec.ofNat 32 j)).toInt.toNat 36 = j
    exact clamp_ofNat _ _ _ (by omega) (by omega)

/-- The same for a row and a column given as elements of `Fin 37`. -/
theorem G_inrange' (x0 : Feat) (r : Fin 128) (c : Fin 512) (i j : Fin 37) :
    G x0 r c (BitVec.ofNat 32 i.val) (BitVec.ofNat 32 j.val) = x0 (ix4 r c i j) :=
  G_inrange x0 r c i.val j.val i.isLt j.isLt

/-- **The reference at one output element, for in-range neighbour words.** When the four clipped words are the rows
    `i0`, `i1` and the columns `j0`, `j1`, the output element is the bilinear blend of the four feature-map entries
    at those rows and columns, with the row weight `wy` and the column weight `wx`. -/
theorem ref_apply (x0 : Feat) (x1 : Grid) (r : Fin 128) (c : Fin 512) (gy gx : Fin 14) (i0 i1 j0 j1 : Fin 37)
    (ha0 : a0 x1 r gy gx = BitVec.ofNat 32 i0.val) (ha1 : a1 x1 r gy gx = BitVec.ofNat 32 i1.val)
    (hb0 : b0 x1 r gy gx = BitVec.ofNat 32 j0.val) (hb1 : b1 x1 r gy gx = BitVec.ofNat 32 j1.val) :
    val_main_v147 (F := 𝕀) x0 x1 (ix4 r c gy gx)
      = (((x0 (ix4 r c i0 j0) : EReal) * (e1 - wy x1 r gy gx)) * (e1 - wx x1 r gy gx)
          + ((x0 (ix4 r c i0 j1) : EReal) * (e1 - wy x1 r gy gx)) * wx x1 r gy gx
          + ((x0 (ix4 r c i1 j0) : EReal) * wy x1 r gy gx) * (e1 - wx x1 r gy gx))
        + ((x0 (ix4 r c i1 j1) : EReal) * wy x1 r gy gx) * wx x1 r gy gx := by
  rw [val_main_v147_at, ha0, ha1, hb0, hb1, G_inrange', G_inrange', G_inrange', G_inrange']

/-! ## The definitions, spelt out

For a reader who wants the quantities of `ref_apply` without the names of this file. -/

theorem posY_def (x1 : Grid) (r : Fin 128) (gy gx : Fin 14) : posY x1 r gy gx = rpos (x1 (ix4 r gy gx (0 : Fin 2))) := rfl
theorem posX_def (x1 : Grid) (r : Fin 128) (gy gx : Fin 14) : posX x1 r gy gx = rpos (x1 (ix4 r gy gx (1 : Fin 2))) := rfl
theorem flY_def (x1 : Grid) (r : Fin 128) (gy gx : Fin 14) : flY x1 r gy gx = Idealize.ShloMosaic.Ideal.liftRound Int.floor (posY x1 r gy gx) := rfl
theorem flX_def (x1 : Grid) (r : Fin 128) (gy gx : Fin 14) : flX x1 r gy gx = Idealize.ShloMosaic.Ideal.liftRound Int.floor (posX x1 r gy gx) := rfl
theorem wy_def (x1 : Grid) (r : Fin 128) (gy gx : Fin 14) : wy x1 r gy gx = posY x1 r gy gx - flY x1 r gy gx := rfl
theorem wx_def (x1 : Grid) (r : Fin 128) (gy gx : Fin 14) : wx x1 r gy gx = posX x1 r gy gx - flX x1 r gy gx := rfl
theorem a0_def (x1 : Grid) (r : Fin 128) (gy gx : Fin 14) : a0 x1 r gy gx = clipw (Idealize.ShloMosaic.Ideal.fptosi 32 (flY x1 r gy gx)) := rfl
theorem a1_def (x1 : Grid) (r : Fin 128) (gy gx : Fin 14) : a1 x1 r gy gx = clipw (Idealize.ShloMosaic.Ideal.fptosi 32 (flY x1 r gy gx) + 1#32) := rfl
theorem b0_def (x1 : Grid) (r : Fin 128) (gy gx : Fin 14) : b0 x1 r gy gx = clipw (Idealize.ShloMosaic.Ideal.fptosi 32 (flX x1 r gy gx)) := rfl
theorem b1_def (x1 : Grid) (r : Fin 128) (gy gx : Fin 14) : b1 x1 r gy gx = clipw (Idealize.ShloMosaic.Ideal.fptosi 32 (flX x1 r gy gx) + 1#32) := rfl

end Cert.ReferenceIdeal.RefValue

end
-- ==== Proof.BilinearHat.lean ====
import Mathlib

/-!
# Bilinear interpolation: the dense "hat" form equals the sparse two-neighbour form

On a grid of 37 nodes per axis, the weight of the integer node `h` for a real sampling
position `y ∈ [0, 36]` is the hat function `max 0 (1 - |h - y|)`. It vanishes unless
`h` is one of the two neighbours `⌊y⌋` and `⌊y⌋ + 1` of `y`, where it equals
`1 - w` and `w` for the fractional part `w = y - ⌊y⌋`. Hence a hat-weighted sum over
all nodes collapses to the usual two-term (one axis) or four-term (two axes) formula.
At `y = 36` the upper neighbour is clamped to node 36 and its weight `w` is `0`.
-/

noncomputable section

open Finset

namespace Cert.BilinearHat

/-- the weight of the integer node `h` for the real sampling position `y` -/
def hat (h : ℕ) (y : ℝ) : ℝ := max 0 (1 - |(h : ℝ) - y|)

/-- on the unit interval to the right of the node the hat decreases linearly from 1 to 0 -/
theorem hat_of_le (h : ℕ) (y : ℝ) (hy : (h : ℝ) ≤ y) (hy1 : y ≤ (h : ℝ) + 1) :
    hat h y = 1 - (y - (h : ℝ)) := by
  unfold hat
  rw [abs_of_nonpos (by linarith), max_eq_right (by linarith)]
  ring

/-- on the unit interval to the left of the node the hat increases linearly from 0 to 1 -/
theorem hat_of_ge (h : ℕ) (y : ℝ) (hy : y ≤ (h : ℝ)) (hy1 : (h : ℝ) ≤ y + 1) :
    hat h y = 1 - ((h : ℝ) - y) := by
  unfold hat
  rw [abs_of_nonneg (by linarith), max_eq_right (by linarith)]

/-- a node at distance at least one to the left of `y` has weight zero -/
theorem hat_zero_of_le (h : ℕ) (y : ℝ) (hy : (h : ℝ) + 1 ≤ y) : hat h y = 0 := by
  unfold hat
  rw [abs_of_nonpos (by linarith), max_eq_left (by linarith)]

/-- a node at distance at least one to the right of `y` has weight zero -/
theorem hat_zero_of_ge (h : ℕ) (y : ℝ) (hy : y + 1 ≤ (h : ℝ)) : hat h y = 0 := by
  unfold hat
  rw [abs_of_nonneg (by linarith), max_eq_left (by linarith)]

theorem floor_lt (y : ℝ) (h0 : 0 ≤ y) (h1 : y ≤ 36) : ⌊y⌋₊ < 37 := by
  have h : (⌊y⌋₊ : ℝ) ≤ y := Nat.floor_le h0
  have h' : (⌊y⌋₊ : ℝ) < 37 := by linarith
  exact_mod_cast h'

theorem floor_cast (y : ℝ) (h0 : 0 ≤ y) : ((⌊y⌋₊ : ℕ) : ℝ) = ((⌊y⌋ : ℤ) : ℝ) := by
  exact_mod_cast natCast_floor_eq_intCast_floor h0

/-- The hat of node `h`, written with the two neighbours `n` and `min (n+1) 36` of `y`
(`n ≤ y < n + 1`, `y ≤ 36`): it is `1 - w` at `n`, `w` at the upper neighbour, and zero
elsewhere. When `n = 36` both neighbours coincide and `w = 0`, so the two contributions
add up to the correct value `1`. -/
theorem hat_eq_ite (n h : ℕ) (y : ℝ) (hn : (n : ℝ) ≤ y) (hn' : y < (n : ℝ) + 1) (h36 : y ≤ 36) :
    hat h y = (if h = n then 1 - (y - (n : ℝ)) else 0)
      + (if h = min (n + 1) 36 then y - (n : ℝ) else 0) := by
  have hn36 : n ≤ 36 := by
    have : (n : ℝ) ≤ 36 := le_trans hn h36
    exact_mod_cast this
  rcases Nat.lt_or_ge n 36 with hlt | hge
  · -- two distinct neighbours `n` and `n + 1`
    have hm : min (n + 1) 36 = n + 1 := by omega
    rw [hm]
    by_cases e1 : h = n
    · subst e1
      rw [if_pos rfl, if_neg (by omega), add_zero]
      exact hat_of_le h y hn hn'.le
    · by_cases e2 : h = n + 1
      · subst e2
        rw [if_neg e1, if_pos rfl, zero_add]
        rw [hat_of_ge (n + 1) y (by push_cast; linarith) (by push_cast; linarith)]
        push_cast
        ring
      · rw [if_neg e1, if_neg e2, add_zero]
        rcases Nat.lt_or_ge h n with hl | hg
        · have : ((h + 1 : ℕ) : ℝ) ≤ (n : ℝ) := by exact_mod_cast hl
          push_cast at this
          exact hat_zero_of_le h y (by linarith)
        · have hg2 : n + 2 ≤ h := by omega
          have : ((n + 2 : ℕ) : ℝ) ≤ (h : ℝ) := by exact_mod_cast hg2
          push_cast at this
          exact hat_zero_of_ge h y (by linarith)
  · -- `n = 36`, so `y = 36`: the only node with a nonzero weight is 36
    have hn_eq : n = 36 := by omega
    subst hn_eq
    have hy : y = 36 := le_antisymm h36 (by exact_mod_cast hn)
    subst hy
    have hm : min (36 + 1) 36 = 36 := by norm_num
    rw [hm]
    by_cases e1 : h = 36
    · subst e1
      rw [if_pos rfl, if_pos rfl]
      rw [hat_of_le 36 36 (by norm_num) (by norm_num)]
      norm_num
    · rw [if_neg e1, if_neg e1, add_zero]
      rcases Nat.lt_or_ge h 36 with hl | hg
      · have : ((h + 1 : ℕ) : ℝ) ≤ ((36 : ℕ) : ℝ) := by exact_mod_cast hl
        push_cast at this
        exact hat_zero_of_le h 36 (by linarith)
      · have hg2 : 37 ≤ h := by omega
        have : ((37 : ℕ) : ℝ) ≤ (h : ℝ) := by exact_mod_cast hg2
        push_cast at this
        exact hat_zero_of_ge h 36 (by linarith)

/-- One axis: the hat-weighted sum over the 37 nodes is the two-neighbour interpolation. -/
theorem hat_sum (g : ℕ → ℝ) (y : ℝ) (h0 : 0 ≤ y) (h1 : y ≤ 36) :
    ∑ h : Fin 37, g h.val * hat h.val y
      = g ⌊y⌋₊ * (1 - (y - (⌊y⌋₊ : ℝ))) + g (min (⌊y⌋₊ + 1) 36) * (y - (⌊y⌋₊ : ℝ)) := by
  have hn : (⌊y⌋₊ : ℝ) ≤ y := Nat.floor_le h0
  have hn' : y < (⌊y⌋₊ : ℝ) + 1 := Nat.lt_floor_add_one y
  have hlt : ⌊y⌋₊ < 37 := floor_lt y h0 h1
  have hmem1 : ⌊y⌋₊ ∈ range 37 := mem_range.mpr hlt
  have hmem2 : min (⌊y⌋₊ + 1) 36 ∈ range 37 := mem_range.mpr (by omega)
  refine (Fin.sum_univ_eq_sum_range (fun h => g h * hat h y) 37).trans ?_
  have hterm : ∀ h ∈ range 37, g h * hat h y
      = (if h = ⌊y⌋₊ then g h * (1 - (y - (⌊y⌋₊ : ℝ))) else 0)
        + (if h = min (⌊y⌋₊ + 1) 36 then g h * (y - (⌊y⌋₊ : ℝ)) else 0) := by
    intro h _
    rw [hat_eq_ite ⌊y⌋₊ h y hn hn' h1, mul_add, mul_ite, mul_ite, mul_zero]
  rw [sum_congr rfl hterm, sum_add_distrib, sum_ite_eq' (range 37) ⌊y⌋₊,
    sum_ite_eq' (range 37) (min (⌊y⌋₊ + 1) 36), if_pos hmem1, if_pos hmem2]

/-- Two axes: the flat node number `k < 37 * 37` stands for row `k / 37` and column `k % 37`.
The double hat-weighted sum factors into the two one-axis sums. -/
theorem bilinear_sum (f : ℕ → ℕ → ℝ) (y x : ℝ) (hy0 : 0 ≤ y) (hy1 : y ≤ 36)
    (hx0 : 0 ≤ x) (hx1 : x ≤ 36) :
    ∑ k : Fin 1369, f (k.val / 37) (k.val % 37) * (hat (k.val / 37) y * hat (k.val % 37) x)
      = f ⌊y⌋₊ ⌊x⌋₊ * (1 - (y - (⌊y⌋₊ : ℝ))) * (1 - (x - (⌊x⌋₊ : ℝ)))
        + f ⌊y⌋₊ (min (⌊x⌋₊ + 1) 36) * (1 - (y - (⌊y⌋₊ : ℝ))) * (x - (⌊x⌋₊ : ℝ))
        + f (min (⌊y⌋₊ + 1) 36) ⌊x⌋₊ * (y - (⌊y⌋₊ : ℝ)) * (1 - (x - (⌊x⌋₊ : ℝ)))
        + f (min (⌊y⌋₊ + 1) 36) (min (⌊x⌋₊ + 1) 36) * (y - (⌊y⌋₊ : ℝ)) * (x - (⌊x⌋₊ : ℝ)) := by
  -- the flat sum is a double sum over (row, column)
  have hflat : ∑ k : Fin 1369,
        f (k.val / 37) (k.val % 37) * (hat (k.val / 37) y * hat (k.val % 37) x)
      = ∑ p : Fin 37 × Fin 37, f p.1.val p.2.val * (hat p.1.val y * hat p.2.val x) :=
    Fintype.sum_equiv (finProdFinEquiv (m := 37) (n := 37)).symm _ _ (fun _ => rfl)
  rw [hflat, Fintype.sum_prod_type]
  -- inner sum over the columns, for a fixed row
  have hinner : ∀ i : Fin 37,
      ∑ j : Fin 37, f i.val j.val * (hat i.val y * hat j.val x)
        = (f i.val ⌊x⌋₊ * (1 - (x - (⌊x⌋₊ : ℝ)))
            + f i.val (min (⌊x⌋₊ + 1) 36) * (x - (⌊x⌋₊ : ℝ))) * hat i.val y := by
    intro i
    rw [← hat_sum (fun j => f i.val j) x hx0 hx1, sum_mul]
    refine sum_congr rfl (fun j _ => ?_)
    ring
  rw [sum_congr rfl (fun i _ => hinner i)]
  -- outer sum over the rows
  refine (hat_sum (fun i : ℕ => f i ⌊x⌋₊ * (1 - (x - (⌊x⌋₊ : ℝ)))
            + f i (min (⌊x⌋₊ + 1) 36) * (x - (⌊x⌋₊ : ℝ))) y hy0 hy1).trans ?_
  beta_reduce
  ring

end Cert.BilinearHat
-- ==== Proof.CropBridge.lean ====
import proofs.«165540_j53214644798048_2_alg».proof.Proof.CropDefs
import proofs.«165540_j53214644798048_2_alg».proof.Proof.BilinearHat
import Idealize.ShloMosaic.PureOps.Ideal

/-!
# A bilinear crop on real data: from the extended reals to the reals

Both forms of the crop are computed on the extended reals. When every input is a real number and the
normalised coordinate lies in `[-1, 1]`, each quantity they compute — the sampling position, the
distance to a node, the hat weight, the floor and the fractional part, the clipped integer neighbours,
the dense sum over all nodes and the sparse four-term combination — is the coercion of the same
quantity computed on the reals. The lemmas below say so, one per quantity, oriented from the
extended-real expression to the coercion of the real one.
-/

noncomputable section

namespace Cert.CropBridge

open Idealize.ShloMosaic

/-! ## The float constants -/

theorem e0_eq : e0 = ((0 : ℝ) : EReal) := by
  simp [e0, Ideal.ofBits, Ideal.ieee]

theorem e1_eq : e1 = ((1 : ℝ) : EReal) := by
  simp [e1, Ideal.ofBits, Ideal.ieee, -EReal.coe_mul]; norm_num

theorem eHalf_eq : eHalf = ((1 / 2 : ℝ) : EReal) := by
  simp [eHalf, Ideal.ofBits, Ideal.ieee, -EReal.coe_mul]; norm_num

theorem e18_eq : e18 = ((18 : ℝ) : EReal) := by
  simp [e18, Ideal.ofBits, Ideal.ieee, -EReal.coe_mul]; norm_num

theorem e36_eq : e36 = ((36 : ℝ) : EReal) := by
  simp [e36, Ideal.ofBits, Ideal.ieee, -EReal.coe_mul]; norm_num

/-! ## The coercion of the reals into the extended reals commutes with max, min and finite sums -/

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

theorem coe_sum {ι : Type*} (s : Finset ι) (f : ι → ℝ) :
    ((∑ i ∈ s, f i : ℝ) : EReal) = ∑ i ∈ s, ((f i : ℝ) : EReal) := by
  induction s using Finset.cons_induction with
  | empty => simp
  | cons a s ha ih => rw [Finset.sum_cons, Finset.sum_cons, EReal.coe_add, ih]

/-! ## Sampling positions, distance and hat weight on real data -/

/-- for `g ∈ [-1, 1]` the position `(g + 1)·18` already lies in `[0, 36]`, so the clamp is the identity -/
theorem pos_coe (g : ℝ) (h0 : -1 ≤ g) (h1 : g ≤ 1) : pos (g : EReal) = (((g + 1) * 18 : ℝ) : EReal) := by
  unfold pos
  rw [e0_eq, e1_eq, e18_eq, e36_eq, ← EReal.coe_add, ← EReal.coe_mul, ← coe_max, ← coe_min,
    max_eq_right (by nlinarith), min_eq_right (by nlinarith)]

theorem rpos_coe (g : ℝ) : rpos (g : EReal) = (((g + 1) * 18 : ℝ) : EReal) := by
  unfold rpos
  rw [e1_eq, e36_eq, eHalf_eq, ← EReal.coe_add, ← EReal.coe_mul, ← EReal.coe_mul]
  congr 1
  ring

theorem dist_coe (h y : ℝ) : dist (h : EReal) (y : EReal) = ((|h - y| : ℝ) : EReal) := by
  unfold dist
  rw [← EReal.coe_sub, ← EReal.coe_neg, ← coe_max, abs_eq_max_neg]

theorem hat_coe (h : ℕ) (y : ℝ) :
    hat (((h : ℝ)) : EReal) (y : EReal) = ((Cert.BilinearHat.hat h y : ℝ) : EReal) := by
  unfold hat Cert.BilinearHat.hat
  rw [dist_coe, e0_eq, e1_eq, ← EReal.coe_sub, ← coe_max]

/-! ## Floor and fractional part -/

theorem floor_coe (y : ℝ) : Ideal.liftRound Int.floor (y : EReal) = (((⌊y⌋ : ℤ) : ℝ) : EReal) := rfl

theorem frac_coe (y : ℝ) :
    (y : EReal) - Ideal.liftRound Int.floor (y : EReal) = ((y - ((⌊y⌋ : ℤ) : ℝ) : ℝ) : EReal) := by
  rw [floor_coe, ← EReal.coe_sub]

/-! ## The integer neighbours, clipped -/

/-- the float-to-integer conversion of the floor of a position in `[0, 36]` is the word of the natural floor -/
theorem fptosi_floor (y : ℝ) (h0 : 0 ≤ y) :
    Ideal.fptosi 32 (Ideal.liftRound Int.floor (y : EReal)) = BitVec.ofInt 32 (⌊y⌋₊ : ℤ) ∨ 2 ^ 31 ≤ ⌊y⌋₊ := by
  by_cases hb : 2 ^ 31 ≤ ⌊y⌋₊
  · exact Or.inr hb
  · left
    have hfl : (⌊y⌋ : ℤ) = (⌊y⌋₊ : ℤ) := (Int.natCast_floor_eq_floor h0).symm
    have hlt : (⌊y⌋₊ : ℤ) < 2 ^ 31 := by exact_mod_cast not_le.mp hb
    rw [floor_coe, Ideal.fptosi, Ideal.toIntClamped_coe, hfl]
    have hnn : (0 : ℝ) ≤ (((⌊y⌋₊ : ℤ) : ℤ) : ℝ) := by positivity
    rw [if_pos hnn, Int.floor_intCast]
    congr 1
    have h0' : (0 : ℤ) ≤ (⌊y⌋₊ : ℤ) := by positivity
    push_cast
    omega

theorem clipw_ofNat : ∀ n : Fin 37, clipw (BitVec.ofNat 32 n.val) = BitVec.ofNat 32 n.val := by decide

theorem clipw_ofNat_succ :
    ∀ n : Fin 37, clipw (BitVec.ofNat 32 n.val + 1#32) = BitVec.ofNat 32 (min (n.val + 1) 36) := by decide

theorem word_floor (y : ℝ) (h0 : 0 ≤ y) (h1 : y ≤ 36) :
    Ideal.fptosi 32 (Ideal.liftRound Int.floor (y : EReal)) = BitVec.ofNat 32 ⌊y⌋₊ := by
  have hlt := Cert.BilinearHat.floor_lt y h0 h1
  rcases fptosi_floor y h0 with h | h
  · rw [h]; exact BitVec.ofInt_natCast 32 ⌊y⌋₊
  · omega

theorem word0 (y : ℝ) (h0 : 0 ≤ y) (h1 : y ≤ 36) :
    clipw (Ideal.fptosi 32 (Ideal.liftRound Int.floor (y : EReal))) = BitVec.ofNat 32 ⌊y⌋₊ := by
  rw [word_floor y h0 h1]
  exact clipw_ofNat ⟨⌊y⌋₊, Cert.BilinearHat.floor_lt y h0 h1⟩

theorem word1 (y : ℝ) (h0 : 0 ≤ y) (h1 : y ≤ 36) :
    clipw (Ideal.fptosi 32 (Ideal.liftRound Int.floor (y : EReal)) + 1#32)
      = BitVec.ofNat 32 (min (⌊y⌋₊ + 1) 36) := by
  rw [word_floor y h0 h1]
  exact clipw_ofNat_succ ⟨⌊y⌋₊, Cert.BilinearHat.floor_lt y h0 h1⟩

theorem slt_zero_ofNat_fin : ∀ i : Fin 37, (BitVec.ofNat 32 i.val).slt 0#32 = false := by decide

/-- in-range words are not negative -/
theorem slt_zero_ofNat (i : ℕ) (h : i < 37) : (BitVec.ofNat 32 i).slt 0#32 = false :=
  slt_zero_ofNat_fin ⟨i, h⟩

/-! ## The two sides on real data -/

/-- the dense form on real data is the coercion of the real dense sum -/
theorem kernel_sum (f : ℕ → ℕ → ℝ) (y x : ℝ) :
    ∑ k : Fin 1369, ((f (k.val / 37) (k.val % 37) : ℝ) : EReal)
        * (hat ((((k.val / 37 : ℕ) : ℝ)) : EReal) (y : EReal)
            * max e0 (e1 - dist ((((k.val % 37 : ℕ) : ℝ)) : EReal) (x : EReal)))
      = ((∑ k : Fin 1369, f (k.val / 37) (k.val % 37)
            * (Cert.BilinearHat.hat (k.val / 37) y * Cert.BilinearHat.hat (k.val % 37) x) : ℝ) : EReal) := by
  rw [coe_sum]
  refine Finset.sum_congr rfl (fun k _ => ?_)
  rw [EReal.coe_mul, EReal.coe_mul, ← hat_coe, ← hat_coe]
  rfl

/-- the sparse form's four-term combination on real data, associated as `((t1 + t2) + t3) + t4` with each
`t = (v · a) · b` -/
theorem ref_sum (v00 v01 v10 v11 wy wx : ℝ) :
    (((v00 : EReal) * (e1 - (wy : EReal))) * (e1 - (wx : EReal))
        + ((v01 : EReal) * (e1 - (wy : EReal))) * (wx : EReal)
        + ((v10 : EReal) * (wy : EReal)) * (e1 - (wx : EReal))) + ((v11 : EReal) * (wy : EReal)) * (wx : EReal)
      = ((v00 * (1 - wy) * (1 - wx) + v01 * (1 - wy) * wx + v10 * wy * (1 - wx) + v11 * wy * wx : ℝ) : EReal) := by
  rw [e1_eq]
  simp only [← EReal.coe_sub, ← EReal.coe_mul, ← EReal.coe_add]

end Cert.CropBridge

end
-- ==== Proof.SparseDense.lean ====
/-
  The sparse and the dense form of the bilinear crop agree on real data.  For a real feature map and a pixel whose two
  normalised coordinates are reals in [-1, 1], the sampling positions y = (g + 1)·18 lie in [0, 36]; the sparse form
  takes n = ⌊y⌋ and the fraction w = y − n, clips n and n + 1 into [0, 36] (the clipped words are the words of the nodes
  ⌊y⌋ and min(⌊y⌋ + 1, 36)), and combines the four neighbouring entries with weights (1 − wy)(1 − wx), (1 − wy)wx,
  wy(1 − wx), wy·wx.  The dense form sums entry × row hat × column hat over all 1369 nodes; every hat vanishes except
  at the two neighbours, where it is 1 − w and w, so the two agree.  Finiteness is what lets the extended-real
  expressions be read as real ones.
-/
import proofs.«165540_j53214644798048_2_alg».proof.Proof.CropDefs
import proofs.«165540_j53214644798048_2_alg».proof.Proof.BilinearHat
import proofs.«165540_j53214644798048_2_alg».proof.Proof.CropBridge
import Idealize.ShloMosaic.PureOps.Ideal
import Idealize.ShloMosaic.Lib.ValueIdx

noncomputable section

namespace Cert.CropBridge

open Idealize.ShloMosaic Idealize.ShloMosaic.ValueIdx

/-- A real feature map read at (r, ch, a, b) for naturals a, b, zero outside the 37 × 37 range. -/
def nodeValue (f : (⟨4, ![128, 512, 37, 37]⟩ : Shape).Idx → ℝ) (r : Fin 128) (ch : Fin 512) (a b : ℕ) : ℝ :=
  if h : a < 37 ∧ b < 37 then f (ix4 r ch (⟨a, h.1⟩ : Fin 37) (⟨b, h.2⟩ : Fin 37)) else 0

theorem nodeValue_eq (f : (⟨4, ![128, 512, 37, 37]⟩ : Shape).Idx → ℝ) (r : Fin 128) (ch : Fin 512) (a b : ℕ)
    (ha : a < 37) (hb : b < 37) : nodeValue f r ch a b = f (ix4 r ch (⟨a, ha⟩ : Fin 37) (⟨b, hb⟩ : Fin 37)) := by
  unfold nodeValue
  rw [dif_pos ⟨ha, hb⟩]

/-- On real data with the pixel's coordinates in [-1, 1]: the sparse form's four clipped index words are the words of
    the nodes ⌊y⌋, min(⌊y⌋ + 1, 36), ⌊x⌋, min(⌊x⌋ + 1, 36), and its four-term combination is the dense crop. -/
theorem sparse_eq_dense (x0 : (⟨4, ![128, 512, 37, 37]⟩ : Shape).Idx → EReal) (x1 : (⟨4, ![128, 14, 14, 2]⟩ : Shape).Idx → EReal)
    (h0 : ∀ i, ∃ v : ℝ, x0 i = (v : EReal)) (r : Fin 128) (ch : Fin 512) (gy gx : Fin 14) (gyv gxv : ℝ)
    (hgy : x1 (ix4 r gy gx (0 : Fin 2)) = (gyv : EReal)) (hgx : x1 (ix4 r gy gx (1 : Fin 2)) = (gxv : EReal))
    (hy0 : -1 ≤ gyv) (hy1 : gyv ≤ 1) (hx0 : -1 ≤ gxv) (hx1 : gxv ≤ 1) :
    ∃ i0 i1 j0 j1 : Fin 37,
      clipw (Ideal.fptosi 32 (Ideal.liftRound Int.floor (rpos (x1 (ix4 r gy gx (0 : Fin 2)))))) = BitVec.ofNat 32 i0.val
      ∧ clipw (Ideal.fptosi 32 (Ideal.liftRound Int.floor (rpos (x1 (ix4 r gy gx (0 : Fin 2))))) + 1#32) = BitVec.ofNat 32 i1.val
      ∧ clipw (Ideal.fptosi 32 (Ideal.liftRound Int.floor (rpos (x1 (ix4 r gy gx (1 : Fin 2)))))) = BitVec.ofNat 32 j0.val
      ∧ clipw (Ideal.fptosi 32 (Ideal.liftRound Int.floor (rpos (x1 (ix4 r gy gx (1 : Fin 2))))) + 1#32) = BitVec.ofNat 32 j1.val
      ∧ ((x0 (ix4 r ch i0 j0)
              * (e1 - (rpos (x1 (ix4 r gy gx (0 : Fin 2))) - Ideal.liftRound Int.floor (rpos (x1 (ix4 r gy gx (0 : Fin 2)))))))
            * (e1 - (rpos (x1 (ix4 r gy gx (1 : Fin 2))) - Ideal.liftRound Int.floor (rpos (x1 (ix4 r gy gx (1 : Fin 2))))))
          + (x0 (ix4 r ch i0 j1)
              * (e1 - (rpos (x1 (ix4 r gy gx (0 : Fin 2))) - Ideal.liftRound Int.floor (rpos (x1 (ix4 r gy gx (0 : Fin 2)))))))
            * (rpos (x1 (ix4 r gy gx (1 : Fin 2))) - Ideal.liftRound Int.floor (rpos (x1 (ix4 r gy gx (1 : Fin 2)))))
          + (x0 (ix4 r ch i1 j0)
              * (rpos (x1 (ix4 r gy gx (0 : Fin 2))) - Ideal.liftRound Int.floor (rpos (x1 (ix4 r gy gx (0 : Fin 2))))))
            * (e1 - (rpos (x1 (ix4 r gy gx (1 : Fin 2))) - Ideal.liftRound Int.floor (rpos (x1 (ix4 r gy gx (1 : Fin 2)))))))
          + (x0 (ix4 r ch i1 j1)
              * (rpos (x1 (ix4 r gy gx (0 : Fin 2))) - Ideal.liftRound Int.floor (rpos (x1 (ix4 r gy gx (0 : Fin 2))))))
            * (rpos (x1 (ix4 r gy gx (1 : Fin 2))) - Ideal.liftRound Int.floor (rpos (x1 (ix4 r gy gx (1 : Fin 2)))))
        = cropAt x0 x1 r ch gy gx := by
  unfold cropAt
  rw [hgy, hgx, pos_coe gyv hy0 hy1, pos_coe gxv hx0 hx1, rpos_coe, rpos_coe]
  have hya : 0 ≤ (gyv + 1) * 18 := by nlinarith
  have hyb : (gyv + 1) * 18 ≤ 36 := by nlinarith
  have hxa : 0 ≤ (gxv + 1) * 18 := by nlinarith
  have hxb : (gxv + 1) * 18 ≤ 36 := by nlinarith
  generalize (gyv + 1) * 18 = y at hya hyb ⊢
  generalize (gxv + 1) * 18 = x at hxa hxb ⊢
  have hfy := Cert.BilinearHat.floor_lt y hya hyb
  have hfx := Cert.BilinearHat.floor_lt x hxa hxb
  refine ⟨⟨⌊y⌋₊, hfy⟩, ⟨min (⌊y⌋₊ + 1) 36, by omega⟩, ⟨⌊x⌋₊, hfx⟩, ⟨min (⌊x⌋₊ + 1) 36, by omega⟩,
    word0 y hya hyb, word1 y hya hyb, word0 x hxa hxb, word1 x hxa hxb, ?_⟩
  choose f hf using h0
  simp only [hf]
  rw [frac_coe, frac_coe, ref_sum]
  have hk : ∀ k : Fin 1369,
      f (ix4 r ch (⟨k.val / 37, by have := k.isLt; omega⟩ : Fin 37) (⟨k.val % 37, by omega⟩ : Fin 37))
        = nodeValue f r ch (k.val / 37) (k.val % 37) :=
    fun k => (nodeValue_eq f r ch _ _ _ _).symm
  simp only [hk]
  rw [kernel_sum (nodeValue f r ch) y x, Cert.BilinearHat.bilinear_sum (nodeValue f r ch) y x hya hyb hxa hxb,
    nodeValue_eq f r ch _ _ hfy hfx, nodeValue_eq f r ch _ _ hfy (by omega : min (⌊x⌋₊ + 1) 36 < 37),
    nodeValue_eq f r ch _ _ (by omega : min (⌊y⌋₊ + 1) 36 < 37) hfx,
    nodeValue_eq f r ch _ _ (by omega : min (⌊y⌋₊ + 1) 36 < 37) (by omega : min (⌊x⌋₊ + 1) 36 < 37),
    Cert.BilinearHat.floor_cast y hya, Cert.BilinearHat.floor_cast x hxa]

end Cert.CropBridge

end
-- ==== Proof.lean ====
/-
  A bilinear crop of 128 feature maps [512, 37, 37] at 14 × 14 sampling positions each, computed two ways.

  The reference is the sparse form: the sampling position y = (g + 1)·18 of a normalised coordinate g, its floor n and
  fraction w, the two neighbouring rows n and n + 1 clipped into [0, 36], the same for columns, and the four gathered
  entries combined with weights (1 − wy)(1 − wx), (1 − wy)wx, wy(1 − wx), wy·wx.  The kernel is the dense form: per
  pair of RoIs one matrix product of the flattened feature block [512, 1369] with a weight matrix [196, 1369] whose
  entry at pixel p and node k is the product of two hat functions, max(0, 1 − |row(k) − yc|)·max(0, 1 − |col(k) − xc|),
  at the positions clamped into [0, 36]; row(k) = k / 37 and col(k) = k % 37 come from two tables the host computes.

  On the extended reals the two agree when the grid coordinates lie in [-1, 1] (then 0 ≤ y ≤ 36, no clamp or clip
  binds, and each hat is 1 − w at ⌊y⌋, w at ⌊y⌋ + 1 and 0 elsewhere) and every entry is a real (the sparse form uses
  (1 − w) + w = 1 across a product at the upper border, which needs finiteness).  Outside that range they differ: for
  y ≥ 2³¹ − 1 the reference's 32-bit n + 1 wraps to a negative word and clips to row 0.

  The three frames are the programs' runs; the kernel's idealization rewrote nothing; the algebraic claim states both
  results as the same dense crop of the arguments.
-/
import proofs.«165540_j53214644798048_2_alg».proof.Defs
import proofs.«165540_j53214644798048_2_alg».proof.Proof.Gen.Kernel
import proofs.«165540_j53214644798048_2_alg».proof.Proof.Gen.Kernel.Skeleton
import proofs.«165540_j53214644798048_2_alg».proof.Proof.Gen.Kernel.Launch
import proofs.«165540_j53214644798048_2_alg».proof.Proof.Gen.Kernel.Points
import proofs.«165540_j53214644798048_2_alg».proof.Proof.Gen.Kernel.Frame
import proofs.«165540_j53214644798048_2_alg».proof.Proof.Gen.KernelIdeal
import proofs.«165540_j53214644798048_2_alg».proof.Proof.Gen.KernelIdeal.Skeleton
import proofs.«165540_j53214644798048_2_alg».proof.Proof.Gen.KernelIdeal.Launch
import proofs.«165540_j53214644798048_2_alg».proof.Proof.Gen.KernelIdeal.Points
import proofs.«165540_j53214644798048_2_alg».proof.Proof.Gen.KernelIdeal.Frame
import proofs.«165540_j53214644798048_2_alg».proof.Proof.Gen.ReferenceIdeal
import proofs.«165540_j53214644798048_2_alg».proof.Proof.Gen.ReferenceIdeal.Run
import proofs.«165540_j53214644798048_2_alg».proof.Proof.Gen.ReferenceIdeal.Read
import proofs.«165540_j53214644798048_2_alg».proof.Proof.Gen.Pre_finite_inputs
import proofs.«165540_j53214644798048_2_alg».proof.Proof.CropDefs
import proofs.«165540_j53214644798048_2_alg».proof.Proof.KernelValue
import proofs.«165540_j53214644798048_2_alg».proof.Proof.PreDecode
import proofs.«165540_j53214644798048_2_alg».proof.Proof.RefRead
import proofs.«165540_j53214644798048_2_alg».proof.Proof.SparseDense
import Idealize.ShloMosaic.Adequacy
import Idealize.ShloMosaic.Init

noncomputable section

namespace Cert.Proof

open Idealize.ShloMosaic Idealize.ShloMosaic.ValueIdx Idealize.SL.Sem

/-- On real inputs with the grid in [-1, 1] the reference's result is the dense crop, entry by entry: its reading at
    (r, ch, gy, gx) is the sparse four-term combination at the clipped neighbour words, and that combination is the
    dense sum. -/
theorem reference_is_crop (x0 : Cert.ReferenceIdeal.S128x512x37x37.Idx → EReal) (x1 : Cert.ReferenceIdeal.S128x14x14x2.Idx → EReal)
    (h0 : ∀ i, ∃ v : ℝ, x0 i = (v : EReal)) (h1 : ∀ i, ∃ g : ℝ, x1 i = (g : EReal) ∧ -1 ≤ g ∧ g ≤ 1) :
    Cert.ReferenceIdeal.Read.val_main_v147 (F := Ideal) x0 x1 = Cert.CropBridge.crop x0 x1 := by
  funext i
  obtain ⟨r, ch, gy, gx, rfl⟩ : ∃ (r : Fin 128) (ch : Fin 512) (gy gx : Fin 14), i = ix4 r ch gy gx :=
    ⟨i 0, i 1, i 2, i 3, eq_ix4 (n0 := 128) (n1 := 512) (n2 := 14) (n3 := 14) i⟩
  obtain ⟨gyv, hgy, hy0, hy1⟩ := h1 (ix4 r gy gx (0 : Fin 2))
  obtain ⟨gxv, hgx, hx0, hx1⟩ := h1 (ix4 r gy gx (1 : Fin 2))
  obtain ⟨i0, i1, j0, j1, ha0, ha1, hb0, hb1, hE⟩ :=
    Cert.CropBridge.sparse_eq_dense x0 x1 h0 r ch gy gx gyv gxv hgy hgx hy0 hy1 hx0 hx1
  rw [Cert.ReferenceIdeal.RefValue.ref_apply x0 x1 r ch gy gx i0 i1 j0 j1 ha0 ha1 hb0 hb1]
  exact hE

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the dense crop of the arguments: the kernel by its run read block by block, the reference by
    its run read stage by stage and the agreement of the sparse and dense forms on the precondition's domain. -/
theorem algebraic : Cert.algebraic_KernelIdeal_ReferenceIdeal := by
  intro m ρ m' ρ' hpre hagree
  refine ⟨_, Cert.KernelIdeal.CropValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v147_eq, (hagree c).1, (hagree c).2]
  obtain ⟨hf, hg⟩ := Cert.PreDecode.decode _ _ (hpre c)
  exact reference_is_crop _ _ hf hg

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
